-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x512 : Shape := ⟨2, ![500000, 512]⟩
abbrev S1x512 : Shape := ⟨2, ![1, 512]⟩
abbrev S_ : Shape := ⟨0, ![]⟩

class Facts : Prop where
  bcast_S_S500000x512 : S_.BroadcastsInDim S500000x512 (![] : Fin 0 → Fin S500000x512.rank)
  reducesTo_S500000x512_S_d0_1 : S500000x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S500000x512 .f32) (main_arg1 : FVec F S1x512 .f32) : IVec S_ 1 :=
  let main_v0 : FVec F S500000x512 .f32 := Host.absf main_arg0
  let main_cst : FVec F S_ .f32 := constant S_ .f32 0x7F800000#32
  let main_v1 : FVec F S500000x512 .f32 := broadcastInDim S500000x512 ![] bcast_S_S500000x512 main_cst
  let main_v2 : IVec S500000x512 1 := cmpf .olt main_v0 main_v1
  let main_c : IVec S_ 1 := constantI S_ 1 1#1
  let main_v3 : IVec S_ 1 := (fun x v => Host.reduce IntOp.andi x v reducesTo_S500000x512_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  main_v8
-- ==== Kernel.lean ====
abbrev S500000x512 : Shape := ⟨2, ![500000, 512]⟩
abbrev S1x512 : Shape := ⟨2, ![1, 512]⟩
abbrev S2x1x512 : Shape := ⟨3, ![2, 1, 512]⟩
abbrev S2x1x128 : Shape := ⟨3, ![2, 1, 128]⟩
abbrev S5000x512 : Shape := ⟨2, ![5000, 512]⟩
abbrev S1x1x512 : Shape := ⟨3, ![1, 1, 512]⟩
abbrev S1x1x128 : Shape := ⟨3, ![1, 1, 128]⟩
abbrev S1x1 : Shape := ⟨2, ![1, 1]⟩
abbrev S1x5000 : Shape := ⟨2, ![1, 5000]⟩
abbrev S1 : Shape := ⟨1, ![1]⟩
abbrev S1x1x1 : Shape := ⟨3, ![1, 1, 1]⟩
abbrev S_ : Shape := ⟨0, ![]⟩

abbrev nBuf : Space → Nat
  | .hbm => 32
  | .vmem => 12
  | .smem => 0
  | _ => 0

abbrev bufTy : (tb : Table) → Fin (tcTables nBuf tb) → BufTy
  | .hbm, ⟨0, _⟩ => ⟨S500000x512, .f32⟩
  | .hbm, ⟨1, _⟩ => ⟨S1x512, .f32⟩
  | .hbm, ⟨2, _⟩ => ⟨S2x1x512, .f32⟩
  | .hbm, ⟨3, _⟩ => ⟨S2x1x128, .f32⟩
  | .hbm, ⟨4, _⟩ => ⟨S2x1x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S1x1x1, .f32⟩
  | .hbm, ⟨10, _⟩ => ⟨S_, .f32⟩
  | .hbm, ⟨11, _⟩ => ⟨S1x1x1, .f32⟩
  | .hbm, ⟨12, _⟩ => ⟨S_, .f32⟩
  | .hbm, ⟨13, _⟩ => ⟨S1x1x512, .f32⟩
  | .hbm, ⟨14, _⟩ => ⟨S1x512, .f32⟩
  | .hbm, ⟨15, _⟩ => ⟨S1x1x512, .f32⟩
  | .hbm, ⟨16, _⟩ => ⟨S1x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .local _ .vmem, ⟨0, _⟩ => ⟨S1x512, .f32⟩
  | .local _ .vmem, ⟨1, _⟩ => ⟨S5000x512, .f32⟩
  | .local _ .vmem, ⟨2, _⟩ => ⟨S5000x512, .f32⟩
  | .local _ .vmem, ⟨3, _⟩ => ⟨S1x1x512, .f32⟩
  | .local _ .vmem, ⟨4, _⟩ => ⟨S1x1x512, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1, .f32⟩
  | .local _ .vmem, ⟨10, _⟩ => ⟨S1x1, .f32⟩
  | .local _ .vmem, ⟨11, _⟩ => ⟨S1x512, .f32⟩
  | _, _ => ⟨S500000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v36 : BitVec 1 := Scalar.cmpi .eq arg1 c49_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S5000x512_S5000x512_0_0 : ∀ a, (![0, 0] : Fin 2 → Nat) a + S5000x512.size a ≤ S5000x512.size a
  h_S5000x512 : 0 < S5000x512.numel
  reduces_S1x5000_S1 : S1x5000.Reduces [1] S1
  shapeCasts_S1_S1x1 : S1.ShapeCasts S1x1
  broadcasts_S1x1_S1x5000 : S1x1.Broadcasts S1x5000
  bitsLt_bf16_f32 : FTy.bits .bf16 < FTy.bits .f32
  broadcasts_S1x1_S1x512 : S1x1.Broadcasts S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  slices_S2x1x512_S1x1x512_0_0_0 : S2x1x512.Slices ![0, 0, 0] S1x1x512
  shapeCasts_S1x1x512_S1x512 : S1x1x512.ShapeCasts S1x512
  slices_S2x1x512_S1x1x512_1_0_0 : S2x1x512.Slices ![1, 0, 0] S1x1x512
  bcast_S_S1x512 : S_.BroadcastsInDim S1x512 (![] : Fin 0 → Fin S1x512.rank)
  dot_S1x512_S5000x512_S1x5000_1_1_0_0_n_n_wf : DotDims.WF S1x512 S5000x512 S1x5000 [1] [1] [0] [0] [] []
  dot_S1x5000_S5000x512_S1x512_1_0_0_1_n_n_wf : DotDims.WF S1x5000 S5000x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S500000x512.size a
  hwx0_1 : ∀ i : grid0.Coords, EltTy.bits .f32 = 32 ∨ (Rect.block (s := S500000x512) S5000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .f32 = 32 ∨ (Rect.block (s := S2x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

def dot_S1x512_S5000x512_S1x5000_1_1_0_0_n_n : DotDims S1x512 S5000x512 S1x5000 where
  lhsContracting := [1]
  rhsContracting := [1]
  lhsNonContracting := [0]
  rhsNonContracting := [0]
  lhsBatch := []
  rhsBatch := []
  wf := dot_S1x512_S5000x512_S1x5000_1_1_0_0_n_n_wf
def dot_S1x5000_S5000x512_S1x512_1_0_0_1_n_n : DotDims S1x5000 S5000x512 S1x512 where
  lhsContracting := [1]
  rhsContracting := [0]
  lhsNonContracting := [0]
  rhsNonContracting := [1]
  lhsBatch := []
  rhsBatch := []
  wf := dot_S1x5000_S5000x512_S1x512_1_0_0_1_n_n_wf

abbrev win0_0 : Pipeline.Window sig grid0 :=
  Pipeline.Window.ofSpec (Memref.whole main_arg1) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S500000x512 : Shape := ⟨2, ![500000, 512]⟩
abbrev S1x512 : Shape := ⟨2, ![1, 512]⟩
abbrev S512x500000 : Shape := ⟨2, ![512, 500000]⟩
abbrev S1x500000 : Shape := ⟨2, ![1, 500000]⟩
abbrev S_ : Shape := ⟨0, ![]⟩
abbrev S1 : Shape := ⟨1, ![1]⟩
abbrev S1x1 : Shape := ⟨2, ![1, 1]⟩

abbrev nBuf : Space → Nat
  | .hbm => 19
  | .vmem => 0
  | .smem => 0
  | _ => 0

abbrev bufTy : (tb : Table) → Fin (tcTables nBuf tb) → BufTy
  | .hbm, ⟨0, _⟩ => ⟨S500000x512, .f32⟩
  | .hbm, ⟨1, _⟩ => ⟨S1x512, .f32⟩
  | .hbm, ⟨2, _⟩ => ⟨S512x500000, .f32⟩
  | .hbm, ⟨3, _⟩ => ⟨S1x500000, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1x1, .f32⟩
  | .hbm, ⟨10, _⟩ => ⟨S1x500000, .f32⟩
  | .hbm, ⟨11, _⟩ => ⟨S1x500000, .f32⟩
  | .hbm, ⟨12, _⟩ => ⟨S1x500000, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S1x500000, .f32⟩
  | .hbm, ⟨17, _⟩ => ⟨S1x500000, .f32⟩
  | .hbm, ⟨18, _⟩ => ⟨S1x512, .f32⟩
  | _, _ => ⟨S500000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S500000x512_S512x500000_1_0 : S500000x512.Transposes [1, 0] S512x500000
  reducesTo_S1x500000_S1_d1 : S1x500000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x500000_0_1 : S1x1.BroadcastsInDim S1x500000 (![0, 1] : Fin 2 → Fin S1x500000.rank)
  dot_S1x512_S512x500000_S1x500000_1_0_0_1_n_n_wf : DotDims.WF S1x512 S512x500000 S1x500000 [1] [0] [0] [1] [] []
  dot_S1x500000_S500000x512_S1x512_1_0_0_1_n_n_wf : DotDims.WF S1x500000 S500000x512 S1x512 [1] [0] [0] [1] [] []

variable [Facts₀]

def dot_S1x512_S512x500000_S1x500000_1_0_0_1_n_n : DotDims S1x512 S512x500000 S1x500000 where
  lhsContracting := [1]
  rhsContracting := [0]
  lhsNonContracting := [0]
  rhsNonContracting := [1]
  lhsBatch := []
  rhsBatch := []
  wf := dot_S1x512_S512x500000_S1x500000_1_0_0_1_n_n_wf
def dot_S1x500000_S500000x512_S1x512_1_0_0_1_n_n : DotDims S1x500000 S500000x512 S1x512 where
  lhsContracting := [1]
  rhsContracting := [0]
  lhsNonContracting := [0]
  rhsNonContracting := [1]
  lhsBatch := []
  rhsBatch := []
  wf := dot_S1x500000_S500000x512_S1x512_1_0_0_1_n_n_wf

class Facts : Prop extends Facts₀ where

variable [Facts]
-- ==== Proof.Pieces.lean ====
/-
  What one run of the kernel body leaves behind, as values.

  The body keeps three running quantities in scratch memory — a maximum, a normaliser and a weighted sum — and, at the
  last step of a core, copies them out to the three result blocks.  Each quantity it leaves is one whole-buffer store
  whose operands are whole-buffer loads, so what a buffer holds afterwards is the stored expression of the loaded
  contents: at a core's first step of the freshly stored initial values (minus infinity, zero, zero), at a later step
  of what the step before left.  The copies out at the last step read back what that same step has just stored.
-/
import proofs.«136195_j85306640433215_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a core's first step the running maximum is left at the step's maximum taken against minus infinity. -/
theorem first_max (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i) (hc1 : ¬cond0_1 i)
    (x0 : Vec F S1x512 .f32) (x1 : Vec F S5000x512 .f32) :
    sout0_A_0 c i arg2 harg2 arg3 harg3 arg4 harg4 arg5 harg5 arg6 harg6 arg7 harg7 arg8 harg8 arg9 harg9 hc0 hc1 x0 x1 = k0_pay1 (k0_pay9 x0 x1 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a core's first step the running normaliser is the step's, from a zero normaliser. -/
theorem first_norm (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i) (hc1 : ¬cond0_1 i)
    (x0 : Vec F S1x512 .f32) (x1 : Vec F S5000x512 .f32) :
    sout0_A_1 c i arg2 harg2 arg3 harg3 arg4 harg4 arg5 harg5 arg6 harg6 arg7 harg7 arg8 harg8 arg9 harg9 hc0 hc1 x0 x1 = k0_pay12 x0 x1 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a core's first step the running weighted sum is the step's, from a zero accumulator. -/
theorem first_acc (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i) (hc1 : ¬cond0_1 i)
    (x0 : Vec F S1x512 .f32) (x1 : Vec F S5000x512 .f32) :
    sout0_A_2 c i arg2 harg2 arg3 harg3 arg4 harg4 arg5 harg5 arg6 harg6 arg7 harg7 arg8 harg8 arg9 harg9 hc0 hc1 x0 x1 = k0_pay13 x0 x1 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x512) hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running maximum is the step's maximum taken against the one found. -/
theorem mid_max (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : ¬cond0_1 i)
    (x0 : Vec F S1x512 .f32) (x1 : Vec F S5000x512 .f32) (xs0 : Vec F S1x1 .f32) (xs1 : Vec F S1x1 .f32) (xs2 : Vec F S1x512 .f32) :
    sout0_B_0 c i arg2 harg2 arg3 harg3 arg4 harg4 arg5 harg5 arg6 harg6 arg7 harg7 arg8 harg8 arg9 harg9 hc0 hc1 x0 x1 xs0 xs1 xs2 = k0_pay1 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running normaliser is the step's, from the one found. -/
theorem mid_norm (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : ¬cond0_1 i)
    (x0 : Vec F S1x512 .f32) (x1 : Vec F S5000x512 .f32) (xs0 : Vec F S1x1 .f32) (xs1 : Vec F S1x1 .f32) (xs2 : Vec F S1x512 .f32) :
    sout0_B_1 c i arg2 harg2 arg3 harg3 arg4 harg4 arg5 harg5 arg6 harg6 arg7 harg7 arg8 harg8 arg9 harg9 hc0 hc1 x0 x1 xs0 xs1 xs2 = k0_pay12 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running weighted sum is the step's, from the one found. -/
theorem mid_acc (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : ¬cond0_1 i)
    (x0 : Vec F S1x512 .f32) (x1 : Vec F S5000x512 .f32) (xs0 : Vec F S1x1 .f32) (xs1 : Vec F S1x1 .f32) (xs2 : Vec F S1x512 .f32) :
    sout0_B_2 c i arg2 harg2 arg3 harg3 arg4 harg4 arg5 harg5 arg6 harg6 arg7 harg7 arg8 harg8 arg9 harg9 hc0 hc1 x0 x1 xs0 xs1 xs2 = k0_pay13 x0 x1 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running maximum is the step's maximum taken against the one found. -/
theorem last_max (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    sout0_C_0 c i arg2 harg2 arg3 harg3 arg4 harg4 arg5 harg5 arg6 harg6 arg7 harg7 arg8 harg8 arg9 harg9 hc0 hc1 x0 x1 xs0 xs1 xs2 = k0_pay1 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running normaliser is the step's, from the one found. -/
theorem last_norm (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    sout0_C_1 c i arg2 harg2 arg3 harg3 arg4 harg4 arg5 harg5 arg6 harg6 arg7 harg7 arg8 harg8 arg9 harg9 hc0 hc1 x0 x1 xs0 xs1 xs2 = k0_pay12 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- At a later step the running weighted sum is the step's, from the one found. -/
theorem last_acc (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    sout0_C_2 c i arg2 harg2 arg3 harg3 arg4 harg4 arg5 harg5 arg6 harg6 arg7 harg7 arg8 harg8 arg9 harg9 hc0 hc1 x0 x1 xs0 xs1 xs2 = k0_pay13 x0 x1 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- A core's last step copies the weighted sum it has just stored out as the first result's block. -/
theorem out_acc (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    out0_C_2 c i arg2 harg2 arg3 harg3 arg4 harg4 arg5 harg5 arg6 harg6 arg7 harg7 arg8 harg8 arg9 harg9 hc0 hc1 x0 x1 xs0 xs1 xs2 = k0_pay2 (k0_pay13 x0 x1 xs0 xs2) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- A core's last step copies the maximum it has just stored out as the second result's block. -/
theorem out_max (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    out0_C_3 c i arg2 harg2 arg3 harg3 arg4 harg4 arg5 harg5 arg6 harg6 arg7 harg7 arg8 harg8 arg9 harg9 hc0 hc1 x0 x1 xs0 xs1 xs2 = k0_pay3 (k0_pay1 (k0_pay9 x0 x1 xs0)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]
/-- A core's last step copies the normaliser it has just stored out as the third result's block. -/
theorem out_norm (c : Dev nD) (i : grid0.Coords) (arg2 : Memref sig .tc .vmem S1x512 .f32) (harg2 : arg2.IsWhole) (arg3 : Memref sig .tc .vmem S5000x512 .f32) (harg3 : arg3.IsWhole) (arg4 : Memref sig .tc .vmem S1x1x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i) (hc1 : cond0_1 i)
    (x0 : Vec F S1x512 .f32) (x1 : Vec F S5000x512 .f32) (xs0 : Vec F S1x1 .f32) (xs1 : Vec F S1x1 .f32) (xs2 : Vec F S1x512 .f32) :
    out0_C_4 c i arg2 harg2 arg3 harg3 arg4 harg4 arg5 harg5 arg6 harg6 arg7 harg7 arg8 harg8 arg9 harg9 hc0 hc1 x0 x1 xs0 xs1 xs2 = k0_pay4 (k0_pay12 x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x512) _ hz2, View.readAt_eq_ld,
    harg2.read_unread, harg3.read_unread, harg7.read_unread, harg8.read_unread, harg9.read_unread,
    View.ld_unit_zero (S := S1x512) hz2, View.ld_unit_zero (S := S5000x512) hz2, View.ld_unit_zero (S := S1x1) hz2]

end Cert.Pool.Pieces

end
-- ==== Proof.State.lean ====
/-
  The running maximum, normaliser and weighted sum after each grid point, and the three result blocks after a core's
  last point, as the step's expressions of the point's two input blocks and of what the point before left.

  The grid is 2 cores × 50 steps, visited in order, so point `t` is step `t % 50` of core `t / 50`.  At a core's
  first step the three running quantities are first set to minus infinity, zero and zero and the step runs from
  those; at every later step it runs from what the previous point left; at the core's last step the three results
  are copied out after the step.
-/
import proofs.«136195_j85306640433215_2_alg».proof.Proof.Pieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.State

open Cert.KernelIdeal Cert.KernelIdeal.Gen

variable {F : FTy → Type} [FloatOps F]

variable (m : (ℓ : Loc nD τ sig) → Buf (Elt F) ℓ)

/-- The three running quantities after point `n`: maximum, normaliser, weighted sum. -/
abbrev st (c : Dev nD) (n : ℕ) (hn : n < cfg0.N) : Vec F S1x1 .f32 × Vec F S1x1 .f32 × Vec F S1x512 .f32 :=
  (outsAt0 m c n hn).2.2.2

/-- After a core's first step: the step run from minus infinity, zero and zero. -/
theorem st_first (c : Dev nD) (t : Fin cfg0.N) (h0 : t.val % 50 = 0) :
    st m c t.val t.isLt
      = (k0_pay1 (k0_pay9 (iblk m c 0 t) (iblk m c 1 t) k0_pay5), k0_pay12 (iblk m c 0 t) (iblk m c 1 t) k0_pay5 k0_pay6, k0_pay13 (iblk m c 0 t) (iblk m c 1 t) k0_pay5 k0_pay7) := by
  have h1 : ¬t.val % 50 = 49 := by omega
  refine (congrArg (fun p => p.2.2.2) (outsAt0_A m c t h0 h1)).trans ?_
  dsimp only
  exact congr (congrArg Prod.mk (Pieces.first_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t)))
    (congr (congrArg Prod.mk (Pieces.first_norm c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t))) (Pieces.first_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t)))

/-- After a later step: the step run from what the point before left. -/
theorem st_later (c : Dev nD) (t : Fin cfg0.N) (h0 : ¬t.val % 50 = 0) :
    st m c t.val t.isLt
      = (k0_pay1 (k0_pay9 (iblk m c 0 t) (iblk m c 1 t) (st m c (t.val - 1) (Nat.lt_of_le_of_lt (Nat.sub_le _ _) t.isLt)).1),
         k0_pay12 (iblk m c 0 t) (iblk m c 1 t) (st m c (t.val - 1) (Nat.lt_of_le_of_lt (Nat.sub_le _ _) t.isLt)).1 (st m c (t.val - 1) (Nat.lt_of_le_of_lt (Nat.sub_le _ _) t.isLt)).2.1,
         k0_pay13 (iblk m c 0 t) (iblk m c 1 t) (st m c (t.val - 1) (Nat.lt_of_le_of_lt (Nat.sub_le _ _) t.isLt)).1 (st m c (t.val - 1) (Nat.lt_of_le_of_lt (Nat.sub_le _ _) t.isLt)).2.2) := by
  by_cases h1 : t.val % 50 = 49
  · refine (congrArg (fun p => p.2.2.2) (outsAt0_C m c t h0 h1)).trans ?_
    dsimp only
    exact congr (congrArg Prod.mk (Pieces.last_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))
      (congr (congrArg Prod.mk (Pieces.last_norm c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)) (Pieces.last_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))
  · refine (congrArg (fun p => p.2.2.2) (outsAt0_B m c t h0 h1)).trans ?_
    dsimp only
    exact congr (congrArg Prod.mk (Pieces.mid_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))
      (congr (congrArg Prod.mk (Pieces.mid_norm c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)) (Pieces.mid_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))

set_option maxHeartbeats 1000000 in
/-- After a core's last step the three result blocks are the copies out of the three running quantities. -/
theorem outs_last (c : Dev nD) (t : Fin cfg0.N) (h1 : t.val % 50 = 49) :
    (outsAt0 m c t.val t.isLt).1 = k0_pay2 (st m c t.val t.isLt).2.2
      ∧ (outsAt0 m c t.val t.isLt).2.1 = k0_pay3 (st m c t.val t.isLt).1
      ∧ (outsAt0 m c t.val t.isLt).2.2.1 = k0_pay4 (st m c t.val t.isLt).2.1 := by
  have h0 : ¬t.val % 50 = 0 := by omega
  have hs := st_later m c t h0
  have e2 : (st m c t.val t.isLt).2.2 = k0_pay13 (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := congrArg (fun p => p.2.2) hs
  have e0 : (st m c t.val t.isLt).1 = k0_pay1 (k0_pay9 (iblk m c 0 t) (iblk m c 1 t) (outsAt0 m c (t.val - 1) (Nat.lt_of_le_of_lt (Nat.sub_le _ _) t.isLt)).2.2.2.1) := congrArg (fun p => p.1) hs
  have e1 : (st m c t.val t.isLt).2.1 = k0_pay12 (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 := congrArg (fun p => p.2.1) hs
  have o2 : (outsAt0 m c t.val t.isLt).1 = k0_pay2 (k0_pay13 (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
    refine (congrArg (fun p => p.1) (outsAt0_C m c t h0 h1)).trans ?_
    dsimp only
    exact Pieces.out_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  have o3 : (outsAt0 m c t.val t.isLt).2.1 = k0_pay3 (k0_pay1 (k0_pay9 (iblk m c 0 t) (iblk m c 1 t) (outsAt0 m c (t.val - 1) (Nat.lt_of_le_of_lt (Nat.sub_le _ _) t.isLt)).2.2.2.1)) := by
    refine (congrArg (fun p => p.2.1) (outsAt0_C m c t h0 h1)).trans ?_
    dsimp only
    exact Pieces.out_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  have o4 : (outsAt0 m c t.val t.isLt).2.2.1 = k0_pay4 (k0_pay12 (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
    refine (congrArg (fun p => p.2.2.1) (outsAt0_C m c t h0 h1)).trans ?_
    dsimp only
    exact Pieces.out_norm c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  exact ⟨o2.trans (congrArg k0_pay2 e2.symm), o3.trans (congrArg k0_pay3 e0.symm), o4.trans (congrArg k0_pay4 e1.symm)⟩

end Cert.Pool.State

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.Step.lean ====
/-
  One grid step of the streaming softmax, entry by entry, on the extended reals.

  With `q` the query row, `fv` the step's 5000 feature rows, and `(mp, lp, ap)` the running maximum, the running
  normaliser and the running weighted sum that the step finds:
    s k    = Σ d, q d · fv k d                       (the block's scores)
    m'     = max mp (max over k of s k)              (the new running maximum)
    a      = exp (mp - m')                           (the factor that rescales what was accumulated)
    p k    = exp (s k - m')
    l'     = a · lp + Σ k, p k
    acc' d = a · ap d + Σ k, p k · fv k d
  and at the last step of a core the three results are copied out: the accumulator as a [1,1,512] block, the maximum
  and the normaliser each repeated along 128 lanes.
-/
import proofs.«136195_j85306640433215_2_alg».proof.Proof.Gen.KernelIdeal.Skeleton
import proofs.«136195_j85306640433215_2_alg».proof.Proof.LibRowOps
import proofs.«136195_j85306640433215_2_alg».proof.Proof.LibMatmulNN
import Idealize.ShloMosaic.Lib.ValueIdx
import Idealize.ShloMosaic.Lib.Pipeline.Value
import Idealize.ShloMosaic.PureOps.Ideal.Laws

noncomputable section

open scoped BigOperators

namespace Cert.Pool.Step

open Idealize.ShloMosaic Idealize.ShloMosaic.ValueIdx Cert.KernelIdeal Cert.KernelIdeal.Gen

/-- The word of minus infinity is the bottom of the extended reals. -/
theorem ofBits_neg_inf : Ideal.ofBits .f32 0xFF800000#32 = (⊥ : EReal) := by
  simp [Ideal.ofBits, Ideal.ieee]

/-! ## The two contractions' coordinate facts -/

local notation "dNT" => dot_S1x512_S5000x512_S1x5000_1_1_0_0_n_n
local notation "dNN" => dot_S1x5000_S5000x512_S1x512_1_0_0_1_n_n

theorem nt_l0 (j : S1x5000.Idx) (q : (dNT).contr.Idx) : ((dNT).lhsIdx j q 0).val = (j 0).val := by
  unfold DotDims.lhsIdx
  rw [dif_neg (show ¬(0 : Fin S1x512.rank) ∈ (dNT).lhsBatch by decide),
    dif_pos (show (0 : Fin S1x512.rank) ∈ (dNT).lhsNonContracting by decide)]
  rfl
theorem nt_l1 (j : S1x5000.Idx) (q : (dNT).contr.Idx) : ((dNT).lhsIdx j q 1).val = (q ⟨0, by decide⟩).val :=
  (dNT).lhsIdx_val_of_single rfl j q
theorem nt_r0 (j : S1x5000.Idx) (q : (dNT).contr.Idx) : ((dNT).rhsIdx j q 0).val = (j 1).val := by
  unfold DotDims.rhsIdx
  rw [dif_neg (show ¬(0 : Fin S5000x512.rank) ∈ (dNT).rhsBatch by decide),
    dif_pos (show (0 : Fin S5000x512.rank) ∈ (dNT).rhsNonContracting by decide)]
  rfl
theorem nt_r1 (j : S1x5000.Idx) (q : (dNT).contr.Idx) : ((dNT).rhsIdx j q 1).val = (q ⟨0, by decide⟩).val :=
  (dNT).rhsIdx_val_of_single rfl j q

theorem nn_l0 (j : S1x512.Idx) (q : (dNN).contr.Idx) : ((dNN).lhsIdx j q 0).val = (j 0).val := by
  unfold DotDims.lhsIdx
  rw [dif_neg (show ¬(0 : Fin S1x5000.rank) ∈ (dNN).lhsBatch by decide),
    dif_pos (show (0 : Fin S1x5000.rank) ∈ (dNN).lhsNonContracting by decide)]
  rfl
theorem nn_l1 (j : S1x512.Idx) (q : (dNN).contr.Idx) : ((dNN).lhsIdx j q 1).val = (q ⟨0, by decide⟩).val :=
  (dNN).lhsIdx_val_of_single rfl j q
theorem nn_r0 (j : S1x512.Idx) (q : (dNN).contr.Idx) : ((dNN).rhsIdx j q 0).val = (q ⟨0, by decide⟩).val :=
  (dNN).rhsIdx_val_of_single rfl j q
theorem nn_r1 (j : S1x512.Idx) (q : (dNN).contr.Idx) : ((dNN).rhsIdx j q 1).val = (j 1).val := by
  unfold DotDims.rhsIdx
  rw [dif_neg (show ¬(1 : Fin S5000x512.rank) ∈ (dNN).rhsBatch by decide),
    dif_pos (show (1 : Fin S5000x512.rank) ∈ (dNN).rhsNonContracting by decide)]
  rfl

/-! ## The step's values at an entry -/

variable (q : Vec Ideal S1x512 .f32) (fv : Vec Ideal S5000x512 .f32) (mp : Vec Ideal S1x1 .f32)

/-- The score of row `k` of the block: its inner product with the query. -/
theorem score_apply (k : Fin 5000) :
    k0_pay8 (F := Ideal) q fv (ix2 (0 : Fin 1) k) = ∑ d : Fin 512, q (ix2 (0 : Fin 1) d) * fv (ix2 k d) := by
  unfold k0_pay8
  exact Cert.RowOps.matmul_nt_apply dNT (some .fp32) rfl rfl nt_l0 nt_l1 nt_r0 nt_r1 q fv 0 k

/-- The new running maximum: the old one against the block's largest score. -/
theorem max_apply :
    k0_pay9 (F := Ideal) q fv mp (ix2 (0 : Fin 1) (0 : Fin 1))
      = max (mp (ix2 (0 : Fin 1) (0 : Fin 1)))
          ((Finset.univ : Finset (Fin 5000)).fold max (⊥ : EReal) (fun k => k0_pay8 (F := Ideal) q fv (ix2 (0 : Fin 1) k))) := by
  unfold k0_pay9
  show max (mp _) (shapeCast S1x1 (multiReduction .maximumf [1] S1 (k0_pay8 (F := Ideal) q fv) 0xFF800000#32 reduces_S1x5000_S1 (.inl rfl) rfl) shapeCasts_S1_S1x1 (ix2 (0 : Fin 1) (0 : Fin 1))) = _
  rw [Cert.RowOps.shapeCast_a_a1_apply]
  refine congrArg (max (mp (ix2 (0 : Fin 1) (0 : Fin 1)))) ?_
  refine (Cert.RowOps.rowMax_apply (k0_pay8 (F := Ideal) q fv) 0xFF800000#32 reduces_S1x5000_S1 (.inl rfl) rfl (0 : Fin 1)).trans ?_
  rw [ofBits_neg_inf]

/-- The rescaling factor. -/
theorem scale_apply :
    k0_pay10 (F := Ideal) q fv mp (ix2 (0 : Fin 1) (0 : Fin 1))
      = Ideal.exp (mp (ix2 (0 : Fin 1) (0 : Fin 1)) - k0_pay9 (F := Ideal) q fv mp (ix2 (0 : Fin 1) (0 : Fin 1))) := rfl

/-- The weight of row `k`, before normalising. -/
theorem weight_apply (k : Fin 5000) :
    k0_pay11 (F := Ideal) q fv mp (ix2 (0 : Fin 1) k)
      = Ideal.exp (k0_pay8 (F := Ideal) q fv (ix2 (0 : Fin 1) k) - k0_pay9 (F := Ideal) q fv mp (ix2 (0 : Fin 1) (0 : Fin 1))) := by
  unfold k0_pay11
  show Ideal.exp (k0_pay8 (F := Ideal) q fv (ix2 (0 : Fin 1) k)
    - broadcastTo S1x5000 (k0_pay9 (F := Ideal) q fv mp) broadcasts_S1x1_S1x5000 (ix2 (0 : Fin 1) k)) = _
  rw [Cert.RowOps.broadcastTo_a1_ab_apply]

/-- The new running normaliser. -/
theorem norm_apply (lp : Vec Ideal S1x1 .f32) :
    k0_pay12 (F := Ideal) q fv mp lp (ix2 (0 : Fin 1) (0 : Fin 1))
      = k0_pay10 (F := Ideal) q fv mp (ix2 (0 : Fin 1) (0 : Fin 1)) * lp (ix2 (0 : Fin 1) (0 : Fin 1))
        + ∑ k : Fin 5000, k0_pay11 (F := Ideal) q fv mp (ix2 (0 : Fin 1) k) := by
  unfold k0_pay12
  rw [shapeCast_self]
  show k0_pay10 (F := Ideal) q fv mp _ * lp _
    + shapeCast S1x1 (multiReduction .add [1] S1 (k0_pay11 (F := Ideal) q fv mp) 0x00000000#32 reduces_S1x5000_S1 (.inl rfl) rfl) shapeCasts_S1_S1x1 (ix2 (0 : Fin 1) (0 : Fin 1)) = _
  rw [Cert.RowOps.shapeCast_a_a1_apply]
  refine congrArg (fun z => k0_pay10 (F := Ideal) q fv mp (ix2 (0 : Fin 1) (0 : Fin 1)) * lp (ix2 (0 : Fin 1) (0 : Fin 1)) + z) ?_
  exact Cert.RowOps.rowSum_apply (k0_pay11 (F := Ideal) q fv mp) 0x00000000#32 reduces_S1x5000_S1 (.inl rfl) rfl (0 : Fin 1)

/-- The new running weighted sum, column `d`. -/
theorem acc_apply (ap : Vec Ideal S1x512 .f32) (d : Fin 512) :
    k0_pay13 (F := Ideal) q fv mp ap (ix2 (0 : Fin 1) d)
      = k0_pay10 (F := Ideal) q fv mp (ix2 (0 : Fin 1) (0 : Fin 1)) * ap (ix2 (0 : Fin 1) d)
        + ∑ k : Fin 5000, k0_pay11 (F := Ideal) q fv mp (ix2 (0 : Fin 1) k) * fv (ix2 k d) := by
  unfold k0_pay13
  rw [shapeCast_self]
  show broadcastTo S1x512 (k0_pay10 (F := Ideal) q fv mp) broadcasts_S1x1_S1x512 (ix2 (0 : Fin 1) d) * ap _
    + matmul dNN none (truncf .bf16 (k0_pay11 (F := Ideal) q fv mp) bitsLt_bf16_f32) (truncf .bf16 fv bitsLt_bf16_f32)
        (constant S1x512 .f32 0x00000000#32) (ix2 (0 : Fin 1) d) = _
  rw [Cert.RowOps.broadcastTo_a1_ab_apply,
    Cert.MatmulNN.matmul_nn_apply dNN none rfl rfl nn_l0 nn_l1 nn_r0 nn_r1]
  rfl

/-! ## The values a core starts from, and the copies out -/

theorem init_max_apply (i : S1x1.Idx) : k0_pay5 (F := Ideal) i = (⊥ : EReal) := ofBits_neg_inf
theorem init_norm_apply (i : S1x1.Idx) : k0_pay6 (F := Ideal) i = (0 : EReal) := Ideal.ofBits_zero_f32
theorem init_acc_apply (i : S1x512.Idx) : k0_pay7 (F := Ideal) i = (0 : EReal) := Ideal.ofBits_zero_f32

/-- The stored maximum is the computed one. -/
theorem keep_max (v : FVec Ideal S1x1 .f32) : k0_pay1 (F := Ideal) v = v := shapeCast_self v _

/-- The accumulator copied out as a [1,1,512] block. -/
theorem out_acc_apply (v : Vec Ideal S1x512 .f32) (d : Fin 512) :
    k0_pay2 (F := Ideal) v (ix3 (0 : Fin 1) (0 : Fin 1) d) = v (ix2 (0 : Fin 1) d) := by
  unfold k0_pay2
  exact shapeCast_apply v _ _ _ (by rw [Shape.rowMajor_val_two, Shape.rowMajor_val_three]; rfl)

/-- The maximum copied out along 128 lanes. -/
theorem out_max_apply (v : Vec Ideal S1x1 .f32) (l : Fin 128) :
    k0_pay3 (F := Ideal) v (ix3 (0 : Fin 1) (0 : Fin 1) l) = v (ix2 (0 : Fin 1) (0 : Fin 1)) := by
  unfold k0_pay3
  rw [shapeCast_self]
  refine (broadcastTo_apply _ broadcasts_S1x1x1_S1x1x128 (ix3 (0 : Fin 1) (0 : Fin 1) l) (ix3 (0 : Fin 1) (0 : Fin 1) (0 : Fin 1))
    (fun a => by match a with | ⟨0, _⟩ => rfl | ⟨1, _⟩ => rfl | ⟨2, _⟩ => rfl)).trans ?_
  exact shapeCast_apply v _ _ _ (by rw [Shape.rowMajor_val_two, Shape.rowMajor_val_three]; rfl)

/-- The normaliser copied out along 128 lanes. -/
theorem out_norm_apply (v : Vec Ideal S1x1 .f32) (l : Fin 128) :
    k0_pay4 (F := Ideal) v (ix3 (0 : Fin 1) (0 : Fin 1) l) = v (ix2 (0 : Fin 1) (0 : Fin 1)) := by
  unfold k0_pay4
  rw [shapeCast_self]
  refine (broadcastTo_apply _ broadcasts_S1x1x1_S1x1x128 (ix3 (0 : Fin 1) (0 : Fin 1) l) (ix3 (0 : Fin 1) (0 : Fin 1) (0 : Fin 1))
    (fun a => by match a with | ⟨0, _⟩ => rfl | ⟨1, _⟩ => rfl | ⟨2, _⟩ => rfl)).trans ?_
  exact shapeCast_apply v _ _ _ (by rw [Shape.rowMajor_val_two, Shape.rowMajor_val_three]; rfl)

end Cert.Pool.Step

end
-- ==== Proof.Arrays.lean ====
/-
  The three result arrays after the run.

  Each result window's block index is the core number and its block is written back only after the core's last step
  (points 49 and 99), so after the run row `a` of each array is what core `a`'s last point copied out: the running
  weighted sum as a row of 512, the running maximum and the running normaliser each repeated along 128 lanes.
-/
import proofs.«136195_j85306640433215_2_alg».proof.Proof.State
import proofs.«136195_j85306640433215_2_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Arrays

open Cert.KernelIdeal Cert.KernelIdeal.Gen

variable {F : FTy → Type} [FloatOps F]

open Idealize.ShloMosaic.ValueIdx Cert.Pool.State

/-- The result windows' block indices and block extents at every grid point, decided over the 100 points. -/
theorem out_facts : ∀ t : Fin cfg0.N,
    (win0_2.index t 0 = t.val / 50 ∧ win0_2.index t 1 = 0 ∧ win0_2.index t 2 = 0 ∧ win0_2.xsize (grid0.coords t) 0 = 1 ∧ win0_2.xsize (grid0.coords t) 1 = 1 ∧ win0_2.xsize (grid0.coords t) 2 = 512)
      ∧ (win0_3.index t 0 = t.val / 50 ∧ win0_3.index t 1 = 0 ∧ win0_3.index t 2 = 0 ∧ win0_3.xsize (grid0.coords t) 0 = 1 ∧ win0_3.xsize (grid0.coords t) 1 = 1 ∧ win0_3.xsize (grid0.coords t) 2 = 128)
      ∧ (win0_4.index t 0 = t.val / 50 ∧ win0_4.index t 1 = 0 ∧ win0_4.index t 2 = 0 ∧ win0_4.xsize (grid0.coords t) 0 = 1 ∧ win0_4.xsize (grid0.coords t) 1 = 1 ∧ win0_4.xsize (grid0.coords t) 2 = 128) :=
  (by decide +kernel : ∀ t : Fin grid0.N,
    (win0_2.index t 0 = t.val / 50 ∧ win0_2.index t 1 = 0 ∧ win0_2.index t 2 = 0 ∧ win0_2.xsize (grid0.coords t) 0 = 1 ∧ win0_2.xsize (grid0.coords t) 1 = 1 ∧ win0_2.xsize (grid0.coords t) 2 = 512)
      ∧ (win0_3.index t 0 = t.val / 50 ∧ win0_3.index t 1 = 0 ∧ win0_3.index t 2 = 0 ∧ win0_3.xsize (grid0.coords t) 0 = 1 ∧ win0_3.xsize (grid0.coords t) 1 = 1 ∧ win0_3.xsize (grid0.coords t) 2 = 128)
      ∧ (win0_4.index t 0 = t.val / 50 ∧ win0_4.index t 1 = 0 ∧ win0_4.index t 2 = 0 ∧ win0_4.xsize (grid0.coords t) 0 = 1 ∧ win0_4.xsize (grid0.coords t) 1 = 1 ∧ win0_4.xsize (grid0.coords t) 2 = 128))

theorem lastpt (a : ℕ) (ha : a < 2) : a * 50 + 49 < cfg0.N := by
  rw [show cfg0.N = 100 from N_0]; omega

variable (m : (ℓ : Loc nD τ sig) → Buf (Elt Ideal) ℓ) (c : Dev nD)

/-! ## The array of the cores' weighted sums -/

/-- Row `a` of the array is what core `a`'s last point, point `50·a + 49`, leaves in the running weighted sums. -/
def G2 : S2x1x512.Idx → Ideal .f32 := fun i =>
  (st m c ((i 0).val * 50 + 49) (lastpt _ (i 0).isLt)).2.2 (ix2 (0 : Fin 1) (⟨(i 2).val, (i 2).isLt⟩ : Fin 512))

theorem G2_at (i : S2x1x512.Idx) (n : ℕ) (hn : n < cfg0.N) (d : Fin 512) (h0 : (i 0).val * 50 + 49 = n) (h2 : (i 2).val = d.val) :
    G2 m c i = (st m c n hn).2.2 (ix2 (0 : Fin 1) d) := by
  subst h0
  have e : (⟨(i 2).val, (i 2).isLt⟩ : Fin 512) = d := Fin.ext h2
  unfold G2; rw [e]

/-- What a core's last point copies out is the block of that array at the core's row. -/
theorem G2_of (t : Fin cfg0.N) (h1 : t.val % 50 = 49) (y : S1x1x512.Idx) (i : S2x1x512.Idx)
    (hi0 : (i 0).val = t.val / 50) (hi2 : (i 2).val = (y 2).val) :
    k0_pay2 (F := Ideal) (st m c t.val t.isLt).2.2 y = G2 m c i := by
  obtain ⟨a, b, d, rfl⟩ : ∃ (a : Fin 1) (b : Fin 1) (d : Fin 512), y = ix3 a b d := ⟨y 0, y 1, y 2, eq_ix3 y⟩
  obtain rfl : a = 0 := Subsingleton.elim _ _
  obtain rfl : b = 0 := Subsingleton.elim _ _
  rw [Step.out_acc_apply]
  exact (G2_at m c i t.val t.isLt d (by rw [hi0]; omega) hi2).symm

theorem flushed2 (t : Fin cfg0.N) (hf : (cfg0.win 2).flush t = true) :
    (dats m 0 c).flushed 2 t = ((cfg0.win 2).blk t).view.read (Elt Ideal) (G2 m c) := by
  have h1 := (flush0_2 t).mp hf
  show (cfg0.win 2).cut (grid0.coords t) ((dats m 0 c).after 2 t) = _
  rw [after0_2, (outs_last m c t h1).1]
  funext y
  rw [View.read_apply]
  have hy0 : (y 0).val < 1 := (y 0).isLt
  exact G2_of m c t h1 y _
    (by show win0_2.index t 0 * 1 + 1 * (y 0).val = t.val / 50; rw [(out_facts t).1.1]; omega)
    (by show win0_2.index t 2 * 512 + 1 * (y 2).val = (y 2).val; rw [(out_facts t).1.2.2.1]; omega)

theorem cover2 (i : S2x1x512.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 512 := (i 2).isLt
  obtain ⟨t, ht⟩ : ∃ t : Fin cfg0.N, t.val = (i 0).val * 50 + 49 := ⟨⟨(i 0).val * 50 + 49, lastpt _ hi0⟩, rfl⟩
  refine ⟨t, (flush0_2 t).mpr (by rw [ht]; omega), ?_⟩
  show i ∈ ((View.whole main_v0_0).slice (win0_2.rect t)).set
  rw [View.set_slice_whole, Rect.mem_set_unit]
  intro a
  match a with
  | ⟨0, _⟩ =>
    show win0_2.index t 0 * 1 ≤ (i 0 : ℕ) ∧ (i 0 : ℕ) < win0_2.index t 0 * 1 + win0_2.xsize (grid0.coords t) 0
    rw [(out_facts t).1.1, (out_facts t).1.2.2.2.1]; omega
  | ⟨1, _⟩ =>
    show win0_2.index t 1 * 1 ≤ (i 1 : ℕ) ∧ (i 1 : ℕ) < win0_2.index t 1 * 1 + win0_2.xsize (grid0.coords t) 1
    rw [(out_facts t).1.2.1, (out_facts t).1.2.2.2.2.1]; omega
  | ⟨2, _⟩ =>
    show win0_2.index t 2 * 512 ≤ (i 2 : ℕ) ∧ (i 2 : ℕ) < win0_2.index t 2 * 512 + win0_2.xsize (grid0.coords t) 2
    rw [(out_facts t).1.2.2.1, (out_facts t).1.2.2.2.2.2]; omega

/-- After the run the array holds, row by row, what each core's last point copied out. -/
theorem final2 : (dats m 0 c).arrAt 2 cfg0.N = G2 m c :=
  (dats m 0 c).arrAt_eq_of_cover 2 (G2 m c) (flushed2 m c) (cover2)

/-! ## The array of the cores' maxima -/

/-- Row `a` of the array is what core `a`'s last point, point `50·a + 49`, leaves in the running maxima. -/
def G3 : S2x1x128.Idx → Ideal .f32 := fun i =>
  (st m c ((i 0).val * 50 + 49) (lastpt _ (i 0).isLt)).1 (ix2 (0 : Fin 1) (0 : Fin 1))

theorem G3_at (i : S2x1x128.Idx) (n : ℕ) (hn : n < cfg0.N) (h0 : (i 0).val * 50 + 49 = n) :
    G3 m c i = (st m c n hn).1 (ix2 (0 : Fin 1) (0 : Fin 1)) := by
  subst h0
  rfl

/-- What a core's last point copies out is the block of that array at the core's row. -/
theorem G3_of (t : Fin cfg0.N) (h1 : t.val % 50 = 49) (y : S1x1x128.Idx) (i : S2x1x128.Idx)
    (hi0 : (i 0).val = t.val / 50) :
    k0_pay3 (F := Ideal) (st m c t.val t.isLt).1 y = G3 m c i := by
  obtain ⟨a, b, d, rfl⟩ : ∃ (a : Fin 1) (b : Fin 1) (d : Fin 128), y = ix3 a b d := ⟨y 0, y 1, y 2, eq_ix3 y⟩
  obtain rfl : a = 0 := Subsingleton.elim _ _
  obtain rfl : b = 0 := Subsingleton.elim _ _
  rw [Step.out_max_apply]
  exact (G3_at m c i t.val t.isLt (by rw [hi0]; omega)).symm

theorem flushed3 (t : Fin cfg0.N) (hf : (cfg0.win 3).flush t = true) :
    (dats m 0 c).flushed 3 t = ((cfg0.win 3).blk t).view.read (Elt Ideal) (G3 m c) := by
  have h1 := (flush0_3 t).mp hf
  show (cfg0.win 3).cut (grid0.coords t) ((dats m 0 c).after 3 t) = _
  rw [after0_3, (outs_last m c t h1).2.1]
  funext y
  rw [View.read_apply]
  have hy0 : (y 0).val < 1 := (y 0).isLt
  exact G3_of m c t h1 y _
    (by show win0_3.index t 0 * 1 + 1 * (y 0).val = t.val / 50; rw [(out_facts t).2.1.1]; omega)

theorem cover3 (i : S2x1x128.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  obtain ⟨t, ht⟩ : ∃ t : Fin cfg0.N, t.val = (i 0).val * 50 + 49 := ⟨⟨(i 0).val * 50 + 49, lastpt _ hi0⟩, rfl⟩
  refine ⟨t, (flush0_3 t).mpr (by rw [ht]; omega), ?_⟩
  show i ∈ ((View.whole main_v0_1).slice (win0_3.rect t)).set
  rw [View.set_slice_whole, Rect.mem_set_unit]
  intro a
  match a with
  | ⟨0, _⟩ =>
    show win0_3.index t 0 * 1 ≤ (i 0 : ℕ) ∧ (i 0 : ℕ) < win0_3.index t 0 * 1 + win0_3.xsize (grid0.coords t) 0
    rw [(out_facts t).2.1.1, (out_facts t).2.1.2.2.2.1]; omega
  | ⟨1, _⟩ =>
    show win0_3.index t 1 * 1 ≤ (i 1 : ℕ) ∧ (i 1 : ℕ) < win0_3.index t 1 * 1 + win0_3.xsize (grid0.coords t) 1
    rw [(out_facts t).2.1.2.1, (out_facts t).2.1.2.2.2.2.1]; omega
  | ⟨2, _⟩ =>
    show win0_3.index t 2 * 128 ≤ (i 2 : ℕ) ∧ (i 2 : ℕ) < win0_3.index t 2 * 128 + win0_3.xsize (grid0.coords t) 2
    rw [(out_facts t).2.1.2.2.1, (out_facts t).2.1.2.2.2.2.2]; omega

/-- After the run the array holds, row by row, what each core's last point copied out. -/
theorem final3 : (dats m 0 c).arrAt 3 cfg0.N = G3 m c :=
  (dats m 0 c).arrAt_eq_of_cover 3 (G3 m c) (flushed3 m c) (cover3)

/-! ## The array of the cores' normalisers -/

/-- Row `a` of the array is what core `a`'s last point, point `50·a + 49`, leaves in the running normalisers. -/
def G4 : S2x1x128.Idx → Ideal .f32 := fun i =>
  (st m c ((i 0).val * 50 + 49) (lastpt _ (i 0).isLt)).2.1 (ix2 (0 : Fin 1) (0 : Fin 1))

theorem G4_at (i : S2x1x128.Idx) (n : ℕ) (hn : n < cfg0.N) (h0 : (i 0).val * 50 + 49 = n) :
    G4 m c i = (st m c n hn).2.1 (ix2 (0 : Fin 1) (0 : Fin 1)) := by
  subst h0
  rfl

/-- What a core's last point copies out is the block of that array at the core's row. -/
theorem G4_of (t : Fin cfg0.N) (h1 : t.val % 50 = 49) (y : S1x1x128.Idx) (i : S2x1x128.Idx)
    (hi0 : (i 0).val = t.val / 50) :
    k0_pay4 (F := Ideal) (st m c t.val t.isLt).2.1 y = G4 m c i := by
  obtain ⟨a, b, d, rfl⟩ : ∃ (a : Fin 1) (b : Fin 1) (d : Fin 128), y = ix3 a b d := ⟨y 0, y 1, y 2, eq_ix3 y⟩
  obtain rfl : a = 0 := Subsingleton.elim _ _
  obtain rfl : b = 0 := Subsingleton.elim _ _
  rw [Step.out_norm_apply]
  exact (G4_at m c i t.val t.isLt (by rw [hi0]; omega)).symm

theorem flushed4 (t : Fin cfg0.N) (hf : (cfg0.win 4).flush t = true) :
    (dats m 0 c).flushed 4 t = ((cfg0.win 4).blk t).view.read (Elt Ideal) (G4 m c) := by
  have h1 := (flush0_4 t).mp hf
  show (cfg0.win 4).cut (grid0.coords t) ((dats m 0 c).after 4 t) = _
  rw [after0_4, (outs_last m c t h1).2.2]
  funext y
  rw [View.read_apply]
  have hy0 : (y 0).val < 1 := (y 0).isLt
  exact G4_of m c t h1 y _
    (by show win0_4.index t 0 * 1 + 1 * (y 0).val = t.val / 50; rw [(out_facts t).2.2.1]; omega)

theorem cover4 (i : S2x1x128.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 128 := (i 2).isLt
  obtain ⟨t, ht⟩ : ∃ t : Fin cfg0.N, t.val = (i 0).val * 50 + 49 := ⟨⟨(i 0).val * 50 + 49, lastpt _ hi0⟩, rfl⟩
  refine ⟨t, (flush0_4 t).mpr (by rw [ht]; omega), ?_⟩
  show i ∈ ((View.whole main_v0_2).slice (win0_4.rect t)).set
  rw [View.set_slice_whole, Rect.mem_set_unit]
  intro a
  match a with
  | ⟨0, _⟩ =>
    show win0_4.index t 0 * 1 ≤ (i 0 : ℕ) ∧ (i 0 : ℕ) < win0_4.index t 0 * 1 + win0_4.xsize (grid0.coords t) 0
    rw [(out_facts t).2.2.1, (out_facts t).2.2.2.2.2.1]; omega
  | ⟨1, _⟩ =>
    show win0_4.index t 1 * 1 ≤ (i 1 : ℕ) ∧ (i 1 : ℕ) < win0_4.index t 1 * 1 + win0_4.xsize (grid0.coords t) 1
    rw [(out_facts t).2.2.2.1, (out_facts t).2.2.2.2.2.2.1]; omega
  | ⟨2, _⟩ =>
    show win0_4.index t 2 * 128 ≤ (i 2 : ℕ) ∧ (i 2 : ℕ) < win0_4.index t 2 * 128 + win0_4.xsize (grid0.coords t) 2
    rw [(out_facts t).2.2.2.2.1, (out_facts t).2.2.2.2.2.2.2]; omega

/-- After the run the array holds, row by row, what each core's last point copied out. -/
theorem final4 : (dats m 0 c).arrAt 4 cfg0.N = G4 m c :=
  (dats m 0 c).arrAt_eq_of_cover 4 (G4 m c) (flushed4 m c) (cover4)

end Cert.Pool.Arrays

end
-- ==== Proof.Tail.lean ====
/-
  The host tail: merging the two cores' partial results.

  Each core c leaves a running maximum m_c, a normaliser l_c (the sum of exp (x - m_c) over its rows) and a weighted
  sum acc_c (a row of 512 entries). The tail rescales both to the common maximum m = max m_0 m_1, with
  a_c = exp (m_c - m): the normaliser is l = a_0 l_0 + a_1 l_1, the weighted sum acc = a_0 acc_0 + a_1 acc_1, and
  the result is acc / l, entry by entry. `merge` is that composition of array operations, for any float instance;
  `merge_real` reads it on real numbers at the ideal instance, where every operation is the extended reals' and, the
  operands being real and the normaliser nonzero, the result is the real quotient.
-/
import proofs.«136195_j85306640433215_2_alg».proof.Proof.Gen.KernelIdeal
import Idealize.ShloMosaic.Lib.ValueIdx
import Idealize.ShloMosaic.Lib.Pipeline.Value
import Idealize.ShloMosaic.PureOps.Ideal.Laws

noncomputable section

namespace Cert.Pool.Tail

open Idealize.ShloMosaic Cert.KernelIdeal Cert.KernelIdeal.Facts₀

section Def
variable {F : FTy → Type} [FloatOps F]

/-- Lane 0 of core 0's row of a per-core scalar array, as a scalar. -/
def sc0 (A : (⟨S2x1x128, .f32⟩ : BufTy).Contents (Elt F)) : (⟨S_, .f32⟩ : BufTy).Contents (Elt F) :=
  shapeCast S_ (extractStridedSlice S1x1x1 ![0, 0, 0] A slices_S2x1x128_S1x1x1_0_0_0) shapeCasts_S1x1x1_S_

/-- Lane 0 of core 1's row of a per-core scalar array, as a scalar. -/
def sc1 (A : (⟨S2x1x128, .f32⟩ : BufTy).Contents (Elt F)) : (⟨S_, .f32⟩ : BufTy).Contents (Elt F) :=
  shapeCast S_ (extractStridedSlice S1x1x1 ![1, 0, 0] A slices_S2x1x128_S1x1x1_1_0_0) shapeCasts_S1x1x1_S_

/-- Core 0's row of the per-core weighted sums. -/
def row0 (A : (⟨S2x1x512, .f32⟩ : BufTy).Contents (Elt F)) : (⟨S1x512, .f32⟩ : BufTy).Contents (Elt F) :=
  shapeCast S1x512 (extractStridedSlice S1x1x512 ![0, 0, 0] A slices_S2x1x512_S1x1x512_0_0_0) shapeCasts_S1x1x512_S1x512

/-- Core 1's row of the per-core weighted sums. -/
def row1 (A : (⟨S2x1x512, .f32⟩ : BufTy).Contents (Elt F)) : (⟨S1x512, .f32⟩ : BufTy).Contents (Elt F) :=
  shapeCast S1x512 (extractStridedSlice S1x1x512 ![1, 0, 0] A slices_S2x1x512_S1x1x512_1_0_0) shapeCasts_S1x1x512_S1x512

/-- Core 0's rescaling factor exp (m_0 - max m_0 m_1), from the array of maxima. -/
def scale0 (A1 : (⟨S2x1x128, .f32⟩ : BufTy).Contents (Elt F)) : (⟨S_, .f32⟩ : BufTy).Contents (Elt F) :=
  Host.exp (subf (sc0 A1) (maximumf (sc0 A1) (sc1 A1)))

/-- Core 1's rescaling factor exp (m_1 - max m_0 m_1). -/
def scale1 (A1 : (⟨S2x1x128, .f32⟩ : BufTy).Contents (Elt F)) : (⟨S_, .f32⟩ : BufTy).Contents (Elt F) :=
  Host.exp (subf (sc1 A1) (maximumf (sc0 A1) (sc1 A1)))

/-- The merge of the two cores' results: (a_0 acc_0 + a_1 acc_1) / (a_0 l_0 + a_1 l_1), from the arrays of weighted sums
    `A0`, maxima `A1` and normalisers `A2`. -/
def merge (A0 : (⟨S2x1x512, .f32⟩ : BufTy).Contents (Elt F)) (A1 A2 : (⟨S2x1x128, .f32⟩ : BufTy).Contents (Elt F)) :
    (⟨S1x512, .f32⟩ : BufTy).Contents (Elt F) :=
  Host.divf
    (addf (mulf (broadcastInDim S1x512 ![] bcast_S_S1x512 (scale0 A1)) (row0 A0))
      (mulf (broadcastInDim S1x512 ![] bcast_S_S1x512 (scale1 A1)) (row1 A0)))
    (broadcastInDim S1x512 ![] bcast_S_S1x512
      (addf (mulf (scale0 A1) (sc0 A2)) (mulf (scale1 A1) (sc1 A2))))

/-- `merge` with its auxiliary definitions unfolded: the one nested term of the array operations. -/
theorem merge_eq (A0 : (⟨S2x1x512, .f32⟩ : BufTy).Contents (Elt F)) (A1 A2 : (⟨S2x1x128, .f32⟩ : BufTy).Contents (Elt F)) :
    merge A0 A1 A2
      = Host.divf
        (addf (mulf (broadcastInDim S1x512 ![] bcast_S_S1x512 (Host.exp (subf (shapeCast S_ (extractStridedSlice S1x1x1 ![0, 0, 0] A1 slices_S2x1x128_S1x1x1_0_0_0) shapeCasts_S1x1x1_S_) (maximumf (shapeCast S_ (extractStridedSlice S1x1x1 ![0, 0, 0] A1 slices_S2x1x128_S1x1x1_0_0_0) shapeCasts_S1x1x1_S_) (shapeCast S_ (extractStridedSlice S1x1x1 ![1, 0, 0] A1 slices_S2x1x128_S1x1x1_1_0_0) shapeCasts_S1x1x1_S_))))) (shapeCast S1x512 (extractStridedSlice S1x1x512 ![0, 0, 0] A0 slices_S2x1x512_S1x1x512_0_0_0) shapeCasts_S1x1x512_S1x512))
          (mulf (broadcastInDim S1x512 ![] bcast_S_S1x512 (Host.exp (subf (shapeCast S_ (extractStridedSlice S1x1x1 ![1, 0, 0] A1 slices_S2x1x128_S1x1x1_1_0_0) shapeCasts_S1x1x1_S_) (maximumf (shapeCast S_ (extractStridedSlice S1x1x1 ![0, 0, 0] A1 slices_S2x1x128_S1x1x1_0_0_0) shapeCasts_S1x1x1_S_) (shapeCast S_ (extractStridedSlice S1x1x1 ![1, 0, 0] A1 slices_S2x1x128_S1x1x1_1_0_0) shapeCasts_S1x1x1_S_))))) (shapeCast S1x512 (extractStridedSlice S1x1x512 ![1, 0, 0] A0 slices_S2x1x512_S1x1x512_1_0_0) shapeCasts_S1x1x512_S1x512)))
        (broadcastInDim S1x512 ![] bcast_S_S1x512 (addf (mulf (Host.exp (subf (shapeCast S_ (extractStridedSlice S1x1x1 ![0, 0, 0] A1 slices_S2x1x128_S1x1x1_0_0_0) shapeCasts_S1x1x1_S_) (maximumf (shapeCast S_ (extractStridedSlice S1x1x1 ![0, 0, 0] A1 slices_S2x1x128_S1x1x1_0_0_0) shapeCasts_S1x1x1_S_) (shapeCast S_ (extractStridedSlice S1x1x1 ![1, 0, 0] A1 slices_S2x1x128_S1x1x1_1_0_0) shapeCasts_S1x1x1_S_)))) (shapeCast S_ (extractStridedSlice S1x1x1 ![0, 0, 0] A2 slices_S2x1x128_S1x1x1_0_0_0) shapeCasts_S1x1x1_S_)) (mulf (Host.exp (subf (shapeCast S_ (extractStridedSlice S1x1x1 ![1, 0, 0] A1 slices_S2x1x128_S1x1x1_1_0_0) shapeCasts_S1x1x1_S_) (maximumf (shapeCast S_ (extractStridedSlice S1x1x1 ![0, 0, 0] A1 slices_S2x1x128_S1x1x1_0_0_0) shapeCasts_S1x1x1_S_) (shapeCast S_ (extractStridedSlice S1x1x1 ![1, 0, 0] A1 slices_S2x1x128_S1x1x1_1_0_0) shapeCasts_S1x1x1_S_)))) (shapeCast S_ (extractStridedSlice S1x1x1 ![1, 0, 0] A2 slices_S2x1x128_S1x1x1_1_0_0) shapeCasts_S1x1x1_S_)))) := rfl

/-! ### The layout operations read at an index -/

/-- The scalar shape's row-major position is 0. -/
theorem rowMajor_scalar (j : S_.Idx) : (S_.rowMajor j).val = 0 := Shape.rowMajorPi_zero _ _

theorem sc0_apply (A : (⟨S2x1x128, .f32⟩ : BufTy).Contents (Elt F)) (j : S_.Idx) :
    sc0 A j = A (ValueIdx.ix3 (0 : Fin 2) (0 : Fin 1) (0 : Fin 128)) := by
  unfold sc0
  rw [shapeCast_apply _ _ j (ValueIdx.ix3 (0 : Fin 1) (0 : Fin 1) (0 : Fin 1))
    (by rw [Shape.rowMajor_val_three, rowMajor_scalar]; rfl)]
  exact extractStridedSlice_apply _ _ _ _ _ (fun a => by match a with | ⟨0, _⟩ => rfl | ⟨1, _⟩ => rfl | ⟨2, _⟩ => rfl)

theorem sc1_apply (A : (⟨S2x1x128, .f32⟩ : BufTy).Contents (Elt F)) (j : S_.Idx) :
    sc1 A j = A (ValueIdx.ix3 (1 : Fin 2) (0 : Fin 1) (0 : Fin 128)) := by
  unfold sc1
  rw [shapeCast_apply _ _ j (ValueIdx.ix3 (0 : Fin 1) (0 : Fin 1) (0 : Fin 1))
    (by rw [Shape.rowMajor_val_three, rowMajor_scalar]; rfl)]
  exact extractStridedSlice_apply _ _ _ _ _ (fun a => by match a with | ⟨0, _⟩ => rfl | ⟨1, _⟩ => rfl | ⟨2, _⟩ => rfl)

theorem row0_apply (A : (⟨S2x1x512, .f32⟩ : BufTy).Contents (Elt F)) (d : Fin 512) :
    row0 A (ValueIdx.ix2 (0 : Fin 1) d) = A (ValueIdx.ix3 (0 : Fin 2) (0 : Fin 1) d) := by
  unfold row0
  rw [shapeCast_apply _ _ (ValueIdx.ix2 (0 : Fin 1) d) (ValueIdx.ix3 (0 : Fin 1) (0 : Fin 1) d)
    (by rw [Shape.rowMajor_val_three, Shape.rowMajor_val_two]; rfl)]
  exact extractStridedSlice_apply _ _ _ _ _
    (fun a => by match a with | ⟨0, _⟩ => rfl | ⟨1, _⟩ => rfl | ⟨2, _⟩ => exact (Nat.zero_add _).symm)

theorem row1_apply (A : (⟨S2x1x512, .f32⟩ : BufTy).Contents (Elt F)) (d : Fin 512) :
    row1 A (ValueIdx.ix2 (0 : Fin 1) d) = A (ValueIdx.ix3 (1 : Fin 2) (0 : Fin 1) d) := by
  unfold row1
  rw [shapeCast_apply _ _ (ValueIdx.ix2 (0 : Fin 1) d) (ValueIdx.ix3 (0 : Fin 1) (0 : Fin 1) d)
    (by rw [Shape.rowMajor_val_three, Shape.rowMajor_val_two]; rfl)]
  exact extractStridedSlice_apply _ _ _ _ _
    (fun a => by match a with | ⟨0, _⟩ => rfl | ⟨1, _⟩ => rfl | ⟨2, _⟩ => exact (Nat.zero_add _).symm)

/-- A broadcast scalar reads its one element everywhere. -/
theorem bcast_apply {α : Type} (x : S_.Idx → α) (j : S1x512.Idx) :
    broadcastInDim S1x512 ![] bcast_S_S1x512 x j = x ValueIdx.ix0 := by
  unfold broadcastInDim
  exact congrArg x (funext fun a => a.elim0)

end Def

/-! ### The merge on real numbers -/

open ValueIdx in
/-- The merge at one entry, at the ideal instance: the extended reals' operations on the arrays' entries. -/
theorem merge_apply (A0 : (⟨S2x1x512, .f32⟩ : BufTy).Contents (Elt Ideal)) (A1 A2 : (⟨S2x1x128, .f32⟩ : BufTy).Contents (Elt Ideal))
    (d : Fin 512) :
    merge (F := Ideal) A0 A1 A2 (ix2 (0 : Fin 1) d)
      = Ideal.div
          (Ideal.exp (A1 (ix3 (0 : Fin 2) (0 : Fin 1) (0 : Fin 128))
                - max (A1 (ix3 (0 : Fin 2) (0 : Fin 1) (0 : Fin 128))) (A1 (ix3 (1 : Fin 2) (0 : Fin 1) (0 : Fin 128))))
              * A0 (ix3 (0 : Fin 2) (0 : Fin 1) d)
            + Ideal.exp (A1 (ix3 (1 : Fin 2) (0 : Fin 1) (0 : Fin 128))
                - max (A1 (ix3 (0 : Fin 2) (0 : Fin 1) (0 : Fin 128))) (A1 (ix3 (1 : Fin 2) (0 : Fin 1) (0 : Fin 128))))
              * A0 (ix3 (1 : Fin 2) (0 : Fin 1) d))
          (Ideal.exp (A1 (ix3 (0 : Fin 2) (0 : Fin 1) (0 : Fin 128))
                - max (A1 (ix3 (0 : Fin 2) (0 : Fin 1) (0 : Fin 128))) (A1 (ix3 (1 : Fin 2) (0 : Fin 1) (0 : Fin 128))))
              * A2 (ix3 (0 : Fin 2) (0 : Fin 1) (0 : Fin 128))
            + Ideal.exp (A1 (ix3 (1 : Fin 2) (0 : Fin 1) (0 : Fin 128))
                - max (A1 (ix3 (0 : Fin 2) (0 : Fin 1) (0 : Fin 128))) (A1 (ix3 (1 : Fin 2) (0 : Fin 1) (0 : Fin 128))))
              * A2 (ix3 (1 : Fin 2) (0 : Fin 1) (0 : Fin 128))) := by
  have hs0 : ∀ j, scale0 (F := Ideal) A1 j = Ideal.exp (sc0 A1 j - max (sc0 A1 j) (sc1 A1 j)) := fun _ => rfl
  have hs1 : ∀ j, scale1 (F := Ideal) A1 j = Ideal.exp (sc1 A1 j - max (sc0 A1 j) (sc1 A1 j)) := fun _ => rfl
  show Ideal.div
      (broadcastInDim S1x512 ![] bcast_S_S1x512 (scale0 A1) (ix2 (0 : Fin 1) d) * row0 A0 (ix2 (0 : Fin 1) d)
        + broadcastInDim S1x512 ![] bcast_S_S1x512 (scale1 A1) (ix2 (0 : Fin 1) d) * row1 A0 (ix2 (0 : Fin 1) d))
      (broadcastInDim S1x512 ![] bcast_S_S1x512 (addf (mulf (scale0 A1) (sc0 A2)) (mulf (scale1 A1) (sc1 A2))) (ix2 (0 : Fin 1) d)) = _
  rw [bcast_apply, bcast_apply, bcast_apply, row0_apply, row1_apply]
  show Ideal.div (scale0 A1 ix0 * _ + scale1 A1 ix0 * _) (scale0 A1 ix0 * sc0 A2 ix0 + scale1 A1 ix0 * sc1 A2 ix0) = _
  rw [hs0, hs1, sc0_apply, sc1_apply, sc0_apply, sc1_apply]

/-- The maximum of two real numbers, as extended reals. -/
theorem coe_max (x y : ℝ) : max (x : EReal) (y : EReal) = ((max x y : ℝ) : EReal) :=
  (EReal.coe_strictMono.monotone.map_max).symm

/-- With real maxima μ_c, normalisers Z_c and weighted sums W_c, and a nonzero merged normaliser, the merge is the real
    quotient (a_0 W_0 + a_1 W_1) / (a_0 Z_0 + a_1 Z_1), a_c = exp (μ_c - max μ_0 μ_1). -/
theorem merge_real (A0 : (⟨S2x1x512, .f32⟩ : BufTy).Contents (Elt Ideal)) (A1 A2 : (⟨S2x1x128, .f32⟩ : BufTy).Contents (Elt Ideal))
    (μ0 μ1 Z0 Z1 : ℝ) (W0 W1 : Fin 512 → ℝ)
    (h10 : A1 (ValueIdx.ix3 (0 : Fin 2) (0 : Fin 1) (0 : Fin 128)) = ((μ0 : ℝ) : EReal))
    (h11 : A1 (ValueIdx.ix3 (1 : Fin 2) (0 : Fin 1) (0 : Fin 128)) = (μ1 : EReal))
    (h20 : A2 (ValueIdx.ix3 (0 : Fin 2) (0 : Fin 1) (0 : Fin 128)) = (Z0 : EReal))
    (h21 : A2 (ValueIdx.ix3 (1 : Fin 2) (0 : Fin 1) (0 : Fin 128)) = (Z1 : EReal))
    (h00 : ∀ d : Fin 512, A0 (ValueIdx.ix3 (0 : Fin 2) (0 : Fin 1) d) = (W0 d : EReal))
    (h01 : ∀ d : Fin 512, A0 (ValueIdx.ix3 (1 : Fin 2) (0 : Fin 1) d) = (W1 d : EReal))
    (hne : Real.exp (μ0 - max μ0 μ1) * Z0 + Real.exp (μ1 - max μ0 μ1) * Z1 ≠ 0) (d : Fin 512) :
    merge (F := Ideal) A0 A1 A2 (ValueIdx.ix2 (0 : Fin 1) d)
      = (((Real.exp (μ0 - max μ0 μ1) * W0 d + Real.exp (μ1 - max μ0 μ1) * W1 d)
          / (Real.exp (μ0 - max μ0 μ1) * Z0 + Real.exp (μ1 - max μ0 μ1) * Z1) : ℝ) : EReal) := by
  rw [merge_apply, h10, h11, h20, h21, h00 d, h01 d, coe_max, ← EReal.coe_sub, ← EReal.coe_sub, Ideal.exp_coe, Ideal.exp_coe,
    ← EReal.coe_mul, ← EReal.coe_mul, ← EReal.coe_mul, ← EReal.coe_mul, ← EReal.coe_add, ← EReal.coe_add,
    Ideal.div_coe hne, ← EReal.coe_mul, mul_one_div]

end Cert.Pool.Tail

end
-- ==== Proof.KRun.lean ====
/-
  The kernel's run, with its result named.

  After the region the three result arrays hold each core's copies out, and the host lines that follow compute the
  two-core merge of them; the argument arrays are left as they were.
-/
import proofs.«136195_j85306640433215_2_alg».proof.Proof.Arrays
import proofs.«136195_j85306640433215_2_alg».proof.Proof.Tail
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.KRun

open Cert.KernelIdeal Cert.KernelIdeal.Gen

variable {F : FTy → Type} [FloatOps F]

open Cert.Pool.Arrays Cert.Pool.Tail

variable (m : (ℓ : Loc nD τ sig) → Buf (Elt Ideal) ℓ) (ρ : Dev nD → PrngReg)

set_option maxHeartbeats 4000000 in
/-- The host lines after the region compute the merge of the three result arrays. -/
theorem tail_eq (c : Dev nD) :
    Pipeline.afterTail₀ cfgs (dats m) 0 (V0 m) [hostOps1] c main_v27 = merge (F := Ideal) (G2 m c) (G3 m c) (G4 m c) := by
  have e2 : Pipeline.withArrays (cfgs 0).spec c (V0 m c) (fun w => (dats m 0 c).arrAt w (cfgs 0).N) (Proc.devRef .tc main_v0_0) = G2 m c :=
    (Pipeline.withArrays_arr (cfgs 0).spec launch0.win.arr_inj c _ _ 2).trans (final2 m c)
  have e3 : Pipeline.withArrays (cfgs 0).spec c (V0 m c) (fun w => (dats m 0 c).arrAt w (cfgs 0).N) (Proc.devRef .tc main_v0_1) = G3 m c :=
    (Pipeline.withArrays_arr (cfgs 0).spec launch0.win.arr_inj c _ _ 3).trans (final3 m c)
  have e4 : Pipeline.withArrays (cfgs 0).spec c (V0 m c) (fun w => (dats m 0 c).arrAt w (cfgs 0).N) (Proc.devRef .tc main_v0_2) = G4 m c :=
    (Pipeline.withArrays_arr (cfgs 0).spec launch0.win.arr_inj c _ _ 4).trans (final4 m c)
  unfold Pipeline.afterTail₀
  simp only [hostOps1, List.flatten_cons, List.flatten_nil, List.append_nil]
  after_results
  rw [e2, e3, e4]
  rfl

/-- Every weakly fair execution of the idealized kernel terminates with its result at the merge of the three result
    arrays and its arguments unchanged. -/
theorem run : θ_run defs (onTc (τ := τ) (main (F := Ideal))) ⟨m, fun _ => 0, ρ⟩ (fun r => ∀ c : Dev nD,
      r.2.mem ((c.tc : Thread nD τ).loc main_v27) = merge (F := Ideal) (G2 m c) (G3 m c) (G4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v27 (Pipeline.mem_restRefs_of main_v27 rfl (by decide))).trans (tail_eq m c),
        ((h c).1 1).trans (((dats m 0 c).arrAt_in 1 rfl _).trans ((A_eq m c 1).trans (V_main_arg0 m c))),
        ((h c).1 0).trans (((dats m 0 c).arrAt_in 0 rfl _).trans ((A_eq m c 0).trans (V_main_arg1 m c)))⟩)
    (run_main m ρ)

end Cert.Pool.KRun

end
-- ==== Proof.Blocks.lean ====
/-
  The two input blocks a grid point sees, read at an entry of the argument arrays.

  The query window's block is the whole [1,512] query at every point.  The feature window's block at point `t` is
  rows `5000·t … 5000·t + 4999` of the [500000,512] feature array: the 100 points of the grid walk the rows in order,
  core 0 the first 250000 and core 1 the rest.
-/
import proofs.«136195_j85306640433215_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Blocks

open Cert.KernelIdeal Cert.KernelIdeal.Gen

variable {F : FTy → Type} [FloatOps F]

open Idealize.ShloMosaic.ValueIdx

variable (m : (ℓ : Loc nD τ sig) → Buf (Elt F) ℓ)

/-- The block indices of the two input windows at every grid point, decided over the 100 points. -/
theorem idx_facts : ∀ t : Fin cfg0.N,
    win0_0.index t 0 = 0 ∧ win0_0.index t 1 = 0 ∧ win0_1.index t 0 = t.val ∧ win0_1.index t 1 = 0 :=
  (by decide +kernel : ∀ t : Fin grid0.N,
    win0_0.index t 0 = 0 ∧ win0_0.index t 1 = 0 ∧ win0_1.index t 0 = t.val ∧ win0_1.index t 1 = 0)

/-- The query block is the query. -/
theorem qblk_apply (c : Dev nD) (t : Fin cfg0.N) (d : Fin 512) :
    (iblk m c 0 t : Vec F S1x512 .f32) (ix2 (0 : Fin 1) d) = m ((c : Thread nD τ).loc main_arg1) (ix2 (0 : Fin 1) d) := by
  unfold iblk
  rw [View.read_apply]
  show m ((c : Thread nD τ).loc main_arg1) _ = m ((c : Thread nD τ).loc main_arg1) _
  congr 1
  funext a; apply Fin.ext
  match a with
  | ⟨0, _⟩ => show win0_0.index t 0 * 1 + 1 * 0 = 0; rw [(idx_facts t).1]
  | ⟨1, _⟩ => show win0_0.index t 1 * 512 + 1 * d.val = d.val; rw [(idx_facts t).2.1]; omega

/-- Row `r` of the feature block at point `t` is row `5000·t + r` of the feature array. -/
theorem fblk_apply (c : Dev nD) (t : Fin cfg0.N) (r : Fin 5000) (d : Fin 512) (h : t.val * 5000 + r.val < 500000) :
    (iblk m c 1 t : Vec F S5000x512 .f32) (ix2 r d)
      = m ((c : Thread nD τ).loc main_arg0) (ix2 (⟨t.val * 5000 + r.val, h⟩ : Fin 500000) d) := by
  unfold iblk
  rw [View.read_apply]
  show m ((c : Thread nD τ).loc main_arg0) _ = m ((c : Thread nD τ).loc main_arg0) _
  congr 1
  funext a; apply Fin.ext
  match a with
  | ⟨0, _⟩ => show win0_1.index t 0 * 5000 + 1 * r.val = t.val * 5000 + r.val; rw [(idx_facts t).2.2.1]; omega
  | ⟨1, _⟩ => show win0_1.index t 1 * 512 + 1 * d.val = d.val; rw [(idx_facts t).2.2.2]; omega

end Cert.Pool.Blocks

end
-- ==== Proof.StepReal.lean ====
/-
  One grid step of the streaming softmax on real numbers.

  When the query, the step's 5000 feature rows and the running values the step finds are real numbers, so are the
  values it leaves. Every score s r = Σ d, q d · g r d is real; the block's largest score, folded from −∞ over the
  nonempty index set, is below +∞ and at least s 0, so it is a real number ν. At a later step the new running maximum
  is μ' = max μ ν, the rescaling factor is exp (μ − μ'), the weights are exp (s r − μ'), and
    l'     = exp (μ − μ') · L   + Σ r, exp (s r − μ')
    acc' d = exp (μ − μ') · A d + Σ r, exp (s r − μ') · g r d.
  At a core's first step the running maximum found is −∞, so μ' = ν, the rescaling factor is exp (−∞) = 0, and the
  normaliser and the accumulator found are 0: only the sums remain.
-/
import proofs.«136195_j85306640433215_2_alg».proof.Proof.Step

noncomputable section

open scoped BigOperators

namespace Cert.Pool.StepReal

open Idealize.ShloMosaic Idealize.ShloMosaic.ValueIdx Cert.KernelIdeal Cert.KernelIdeal.Gen Cert.Pool.Step

/-- The score of row r of a block of real rows g against the real query qr. -/
def bscore (qr : Fin 512 → ℝ) (g : Fin 5000 → Fin 512 → ℝ) (r : Fin 5000) : ℝ := ∑ d : Fin 512, qr d * g r d

/-! ## Two general facts -/

/-- The coercion of the reals into the extended reals commutes with finite sums. -/
theorem coe_finset_sum {ι : Type} (s : Finset ι) (u : ι → ℝ) :
    ((∑ i ∈ s, u i : ℝ) : EReal) = ∑ i ∈ s, ((u i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The maximum of 5000 real numbers, folded from −∞, is a real number: it is below +∞ because every operand is,
    and it is at least the first of them, which is above −∞. -/
theorem exists_real_max (u : Fin 5000 → ℝ) :
    ∃ ν : ℝ, (Finset.univ : Finset (Fin 5000)).fold max (⊥ : EReal) (fun k => ((u k : ℝ) : EReal)) = (ν : EReal) := by
  obtain ⟨M, hM⟩ : ∃ M : EReal, M = (Finset.univ : Finset (Fin 5000)).fold max (⊥ : EReal) (fun k => ((u k : ℝ) : EReal)) :=
    ⟨_, rfl⟩
  rw [← hM]
  have h1 : M < ⊤ := by
    rw [hM, Finset.fold_max_lt]
    exact ⟨bot_lt_top, fun x _ => EReal.coe_lt_top _⟩
  have h2 : ((u ⟨0, by decide⟩ : ℝ) : EReal) ≤ M := by
    rw [hM, Finset.le_fold_max]
    exact Or.inr ⟨⟨0, by decide⟩, Finset.mem_univ _, le_rfl⟩
  have h3 : ⊥ < M := lt_of_lt_of_le (EReal.bot_lt_coe _) h2
  exact ⟨M.toReal, (EReal.coe_toReal (ne_of_lt h1) (ne_of_gt h3)).symm⟩

/-! ## The step's values on real inputs -/

section Real

variable (x0 : Vec Ideal S1x512 .f32) (x1 : Vec Ideal S5000x512 .f32) (qr : Fin 512 → ℝ) (g : Fin 5000 → Fin 512 → ℝ)

/-- Every score of the block is real. -/
theorem score_real (h0 : ∀ d, x0 (ix2 (0 : Fin 1) d) = ((qr d : ℝ) : EReal))
    (h1 : ∀ r d, x1 (ix2 r d) = ((g r d : ℝ) : EReal)) (r : Fin 5000) :
    k0_pay8 (F := Ideal) x0 x1 (ix2 (0 : Fin 1) r) = ((bscore qr g r : ℝ) : EReal) := by
  rw [score_apply]
  unfold bscore
  rw [coe_finset_sum]
  refine Finset.sum_congr rfl fun d _ => ?_
  rw [h0, h1, EReal.coe_mul]

/-- The new running maximum is the found one against a real number, the block's largest score. -/
theorem max_real (h0 : ∀ d, x0 (ix2 (0 : Fin 1) d) = ((qr d : ℝ) : EReal))
    (h1 : ∀ r d, x1 (ix2 r d) = ((g r d : ℝ) : EReal)) :
    ∃ ν : ℝ, ∀ mp : Vec Ideal S1x1 .f32,
      k0_pay9 (F := Ideal) x0 x1 mp (ix2 (0 : Fin 1) (0 : Fin 1)) = max (mp (ix2 (0 : Fin 1) (0 : Fin 1))) (ν : EReal) := by
  obtain ⟨ν, hν⟩ := exists_real_max (bscore qr g)
  refine ⟨ν, fun mp => ?_⟩
  rw [max_apply]
  refine congrArg (max (mp (ix2 (0 : Fin 1) (0 : Fin 1)))) ?_
  have hfun : (fun k : Fin 5000 => k0_pay8 (F := Ideal) x0 x1 (ix2 (0 : Fin 1) k))
      = fun k : Fin 5000 => ((bscore qr g k : ℝ) : EReal) := funext fun k => score_real x0 x1 qr g h0 h1 k
  rw [hfun]
  exact hν

/-- With the new running maximum the real μ', the weight of row r is exp (s r − μ'). -/
theorem weight_real (h0 : ∀ d, x0 (ix2 (0 : Fin 1) d) = ((qr d : ℝ) : EReal))
    (h1 : ∀ r d, x1 (ix2 r d) = ((g r d : ℝ) : EReal)) (mp : Vec Ideal S1x1 .f32) (μ' : ℝ)
    (h9 : k0_pay9 (F := Ideal) x0 x1 mp (ix2 (0 : Fin 1) (0 : Fin 1)) = (μ' : EReal)) (r : Fin 5000) :
    k0_pay11 (F := Ideal) x0 x1 mp (ix2 (0 : Fin 1) r) = ((Real.exp (bscore qr g r - μ') : ℝ) : EReal) := by
  rw [weight_apply, score_real x0 x1 qr g h0 h1 r, h9, ← EReal.coe_sub, Ideal.exp_coe]

/-- The new running normaliser, with the rescaling factor the real a and the found normaliser the real ℓ. -/
theorem norm_real (h0 : ∀ d, x0 (ix2 (0 : Fin 1) d) = ((qr d : ℝ) : EReal))
    (h1 : ∀ r d, x1 (ix2 r d) = ((g r d : ℝ) : EReal)) (mp lp : Vec Ideal S1x1 .f32) (μ' a ℓ : ℝ)
    (h9 : k0_pay9 (F := Ideal) x0 x1 mp (ix2 (0 : Fin 1) (0 : Fin 1)) = (μ' : EReal))
    (h10 : k0_pay10 (F := Ideal) x0 x1 mp (ix2 (0 : Fin 1) (0 : Fin 1)) = (a : EReal))
    (hl : lp (ix2 (0 : Fin 1) (0 : Fin 1)) = (ℓ : EReal)) :
    k0_pay12 (F := Ideal) x0 x1 mp lp (ix2 (0 : Fin 1) (0 : Fin 1))
      = ((a * ℓ + ∑ r : Fin 5000, Real.exp (bscore qr g r - μ') : ℝ) : EReal) := by
  rw [norm_apply, h10, hl, EReal.coe_add, EReal.coe_mul, coe_finset_sum]
  refine congrArg (fun z => (a : EReal) * (ℓ : EReal) + z) ?_
  exact Finset.sum_congr rfl fun r _ => weight_real x0 x1 qr g h0 h1 mp μ' h9 r

/-- The new running weighted sum's column d, with the rescaling factor the real a and the found column the real α. -/
theorem acc_real (h0 : ∀ d, x0 (ix2 (0 : Fin 1) d) = ((qr d : ℝ) : EReal))
    (h1 : ∀ r d, x1 (ix2 r d) = ((g r d : ℝ) : EReal)) (mp : Vec Ideal S1x1 .f32) (ap : Vec Ideal S1x512 .f32)
    (μ' a : ℝ) (h9 : k0_pay9 (F := Ideal) x0 x1 mp (ix2 (0 : Fin 1) (0 : Fin 1)) = (μ' : EReal))
    (h10 : k0_pay10 (F := Ideal) x0 x1 mp (ix2 (0 : Fin 1) (0 : Fin 1)) = (a : EReal))
    (d : Fin 512) (α : ℝ) (hα : ap (ix2 (0 : Fin 1) d) = (α : EReal)) :
    k0_pay13 (F := Ideal) x0 x1 mp ap (ix2 (0 : Fin 1) d)
      = ((a * α + ∑ r : Fin 5000, Real.exp (bscore qr g r - μ') * g r d : ℝ) : EReal) := by
  rw [acc_apply, h10, hα, EReal.coe_add, EReal.coe_mul, coe_finset_sum]
  refine congrArg (fun z => (a : EReal) * (α : EReal) + z) ?_
  refine Finset.sum_congr rfl fun r _ => ?_
  rw [weight_real x0 x1 qr g h0 h1 mp μ' h9 r, h1, EReal.coe_mul]

end Real

/-- A later step: from a real running maximum μ, normaliser L and weighted sum A. -/
theorem later_real (x0 : Vec Ideal S1x512 .f32) (x1 : Vec Ideal S5000x512 .f32) (xs0 xs1 : Vec Ideal S1x1 .f32)
    (xs2 : Vec Ideal S1x512 .f32) (qr : Fin 512 → ℝ) (g : Fin 5000 → Fin 512 → ℝ)
    (h0 : ∀ d, x0 (ix2 (0 : Fin 1) d) = ((qr d : ℝ) : EReal)) (h1 : ∀ r d, x1 (ix2 r d) = ((g r d : ℝ) : EReal))
    (μ L : ℝ) (A : Fin 512 → ℝ) (hm : xs0 (ix2 (0 : Fin 1) (0 : Fin 1)) = (μ : EReal))
    (hl : xs1 (ix2 (0 : Fin 1) (0 : Fin 1)) = (L : EReal)) (ha : ∀ d, xs2 (ix2 (0 : Fin 1) d) = (A d : EReal)) :
    ∃ μ' : ℝ, k0_pay9 (F := Ideal) x0 x1 xs0 (ix2 (0 : Fin 1) (0 : Fin 1)) = (μ' : EReal)
      ∧ k0_pay12 (F := Ideal) x0 x1 xs0 xs1 (ix2 (0 : Fin 1) (0 : Fin 1))
          = ((Real.exp (μ - μ') * L + ∑ r : Fin 5000, Real.exp (bscore qr g r - μ') : ℝ) : EReal)
      ∧ ∀ d : Fin 512, k0_pay13 (F := Ideal) x0 x1 xs0 xs2 (ix2 (0 : Fin 1) d)
          = ((Real.exp (μ - μ') * A d + ∑ r : Fin 5000, Real.exp (bscore qr g r - μ') * g r d : ℝ) : EReal) := by
  obtain ⟨ν, hν⟩ := max_real x0 x1 qr g h0 h1
  have h9 : k0_pay9 (F := Ideal) x0 x1 xs0 (ix2 (0 : Fin 1) (0 : Fin 1)) = ((max μ ν : ℝ) : EReal) := by
    rw [hν xs0, hm]
    exact (EReal.coe_strictMono.monotone.map_max).symm
  have h10 : k0_pay10 (F := Ideal) x0 x1 xs0 (ix2 (0 : Fin 1) (0 : Fin 1)) = ((Real.exp (μ - max μ ν) : ℝ) : EReal) := by
    rw [scale_apply, h9, hm, ← EReal.coe_sub, Ideal.exp_coe]
  exact ⟨max μ ν, h9, norm_real x0 x1 qr g h0 h1 xs0 xs1 _ _ L h9 h10 hl,
    fun d => acc_real x0 x1 qr g h0 h1 xs0 xs2 _ _ h9 h10 d (A d) (ha d)⟩

/-- A core's first step: from the running maximum −∞ and the normaliser and weighted sum 0. -/
theorem first_real (x0 : Vec Ideal S1x512 .f32) (x1 : Vec Ideal S5000x512 .f32) (qr : Fin 512 → ℝ)
    (g : Fin 5000 → Fin 512 → ℝ) (h0 : ∀ d, x0 (ix2 (0 : Fin 1) d) = ((qr d : ℝ) : EReal))
    (h1 : ∀ r d, x1 (ix2 r d) = ((g r d : ℝ) : EReal)) :
    ∃ μ' : ℝ, k0_pay9 (F := Ideal) x0 x1 (k0_pay5 (F := Ideal)) (ix2 (0 : Fin 1) (0 : Fin 1)) = (μ' : EReal)
      ∧ k0_pay12 (F := Ideal) x0 x1 (k0_pay5 (F := Ideal)) (k0_pay6 (F := Ideal)) (ix2 (0 : Fin 1) (0 : Fin 1))
          = ((∑ r : Fin 5000, Real.exp (bscore qr g r - μ') : ℝ) : EReal)
      ∧ ∀ d : Fin 512, k0_pay13 (F := Ideal) x0 x1 (k0_pay5 (F := Ideal)) (k0_pay7 (F := Ideal)) (ix2 (0 : Fin 1) d)
          = ((∑ r : Fin 5000, Real.exp (bscore qr g r - μ') * g r d : ℝ) : EReal) := by
  obtain ⟨ν, hν⟩ := max_real x0 x1 qr g h0 h1
  have hm : (k0_pay5 (F := Ideal)) (ix2 (0 : Fin 1) (0 : Fin 1)) = (⊥ : EReal) := init_max_apply _
  have h9 : k0_pay9 (F := Ideal) x0 x1 (k0_pay5 (F := Ideal)) (ix2 (0 : Fin 1) (0 : Fin 1)) = (ν : EReal) := by
    rw [hν (k0_pay5 (F := Ideal)), hm]
    exact max_bot_left _
  have h10 : k0_pay10 (F := Ideal) x0 x1 (k0_pay5 (F := Ideal)) (ix2 (0 : Fin 1) (0 : Fin 1)) = ((0 : ℝ) : EReal) := by
    rw [scale_apply, h9, hm, EReal.bot_sub, Ideal.exp_bot, EReal.coe_zero]
  have hl : (k0_pay6 (F := Ideal)) (ix2 (0 : Fin 1) (0 : Fin 1)) = ((0 : ℝ) : EReal) := by
    rw [init_norm_apply, EReal.coe_zero]
  have ha : ∀ d : Fin 512, (k0_pay7 (F := Ideal)) (ix2 (0 : Fin 1) d) = ((0 : ℝ) : EReal) := fun d => by
    rw [init_acc_apply, EReal.coe_zero]
  refine ⟨ν, h9, ?_, fun d => ?_⟩
  · refine (norm_real x0 x1 qr g h0 h1 (k0_pay5 (F := Ideal)) (k0_pay6 (F := Ideal)) ν 0 0 h9 h10 hl).trans ?_
    rw [zero_mul, zero_add]
  · refine (acc_real x0 x1 qr g h0 h1 (k0_pay5 (F := Ideal)) (k0_pay7 (F := Ideal)) ν 0 h9 h10 d 0 (ha d)).trans ?_
    rw [zero_mul, zero_add]

end Cert.Pool.StepReal

end
-- ==== Proof.Spec.lean ====
/-
  Single-query attention pooling over N = 500000 feature rows of width 512, on the real numbers.

  For feature rows `f k` and a query `q`, the score of row `k` is the inner product `s k = Σ d, q d · f k d`.
  For ANY reference point `μ`, the softmax weight of row `k` is `exp (s k - μ) / Σ k', exp (s k' - μ)` — the
  quotient does not depend on `μ` — and the pooled feature is the weighted sum of the rows.  A program
  that subtracts the maximal score before exponentiating computes this value at `μ = max s`.
-/
import Mathlib

noncomputable section

open scoped BigOperators

namespace Cert.Pool

/-- The score of row `k`: its inner product with the query. -/
def score (f : Fin 500000 → Fin 512 → ℝ) (q : Fin 512 → ℝ) (k : Fin 500000) : ℝ := ∑ d : Fin 512, q d * f k d

/-- The normaliser at reference point `μ`. -/
def norm (f : Fin 500000 → Fin 512 → ℝ) (q : Fin 512 → ℝ) (μ : ℝ) : ℝ := ∑ k : Fin 500000, Real.exp (score f q k - μ)

/-- The pooled feature's column `d`, each row weighted by its softmax weight at reference point `μ`. -/
def pool (f : Fin 500000 → Fin 512 → ℝ) (q : Fin 512 → ℝ) (μ : ℝ) (d : Fin 512) : ℝ :=
  ∑ k : Fin 500000, Real.exp (score f q k - μ) / norm f q μ * f k d

end Cert.Pool

end
-- ==== Proof.LibOnlineSoftmax.lean ====
/-
  A softmax-weighted sum accumulated block by block (the "online softmax" of streaming attention), on the real numbers.

  For scores `s` and values `v` indexed by the naturals, over the `n` rows starting at row `a` and relative to a
  reference point `μ`:
      Zr a n μ = Σ x < n, exp (s (a + x) - μ)                    (the normaliser)
      Wr a n μ = Σ x < n, exp (s (a + x) - μ) · v (a + x)        (the weighted sum)
  * `Zr_shift`, `Wr_shift`: moving the reference point from `μ` to `μ'` multiplies both by `exp (μ - μ')`;
  * `Zr_append`, `Wr_append`: a further block of rows adds its own sums;
  * `Zr_step`, `Wr_step`: one step of a running pair — what was accumulated relative to `μ`, rescaled by
    `exp (μ - μ')`, plus the new block's sums relative to `μ'`, is the pair of all rows so far relative to `μ'`,
    WHATEVER the two reference points are (a kernel takes running maxima; nothing here needs that);
  * `pooled_eq`: two running pairs over adjacent stretches of rows, each relative to its own reference point, merged at
    the larger of the two and divided, give `Wr / Zr` of all the rows relative to ANY reference point: the quotient
    does not depend on the reference point.
  Every extent is arbitrary; nothing depends on a kernel.
-/
import Mathlib

noncomputable section

open scoped BigOperators
open Finset Real

namespace Cert.Pool

variable (s v : ℕ → ℝ)

/-- The normaliser of rows `a … a + n - 1` relative to `μ`. -/
def Zr (a n : ℕ) (μ : ℝ) : ℝ := ∑ x ∈ range n, exp (s (a + x) - μ)

/-- The weighted sum of rows `a … a + n - 1` relative to `μ`. -/
def Wr (a n : ℕ) (μ : ℝ) : ℝ := ∑ x ∈ range n, exp (s (a + x) - μ) * v (a + x)

theorem Zr_pos (a n : ℕ) (hn : 0 < n) (μ : ℝ) : 0 < Zr s a n μ :=
  sum_pos (fun _ _ => exp_pos _) (nonempty_range_iff.mpr hn.ne')

/-- Moving the reference point from `μ` to `μ'` multiplies the normaliser by `exp (μ - μ')`. -/
theorem Zr_shift (a n : ℕ) (μ μ' : ℝ) : exp (μ - μ') * Zr s a n μ = Zr s a n μ' := by
  unfold Zr
  rw [mul_sum]
  refine sum_congr rfl fun x _ => ?_
  rw [← exp_add]; congr 1; ring

/-- … and the weighted sum by the same factor. -/
theorem Wr_shift (a n : ℕ) (μ μ' : ℝ) : exp (μ - μ') * Wr s v a n μ = Wr s v a n μ' := by
  unfold Wr
  rw [mul_sum]
  refine sum_congr rfl fun x _ => ?_
  rw [← mul_assoc, ← exp_add]; congr 2; ring

/-- A further block of `b` rows adds its own normaliser. -/
theorem Zr_append (a n b : ℕ) (μ : ℝ) : Zr s a (n + b) μ = Zr s a n μ + Zr s (a + n) b μ := by
  unfold Zr
  rw [sum_range_add]
  simp only [add_assoc]

/-- … and its own weighted sum. -/
theorem Wr_append (a n b : ℕ) (μ : ℝ) : Wr s v a (n + b) μ = Wr s v a n μ + Wr s v (a + n) b μ := by
  unfold Wr
  rw [sum_range_add]
  simp only [add_assoc]

/-- One step of the running pair: what was accumulated relative to `μ`, rescaled to `μ'`, plus the new block's
    sums relative to `μ'`, is the pair of all rows so far relative to `μ'`. -/
theorem Zr_step (a n b : ℕ) (μ μ' : ℝ) :
    exp (μ - μ') * Zr s a n μ + Zr s (a + n) b μ' = Zr s a (n + b) μ' := by
  rw [Zr_shift, Zr_append]

theorem Wr_step (a n b : ℕ) (μ μ' : ℝ) :
    exp (μ - μ') * Wr s v a n μ + Wr s v (a + n) b μ' = Wr s v a (n + b) μ' := by
  rw [Wr_shift, Wr_append]

/-- Two running pairs over adjacent stretches of rows, each relative to its own reference point, merged at the
    larger of the two and divided: the quotient of the weighted sum of ALL the rows by their normaliser, relative to
    any reference point whatever. -/
theorem pooled_eq (N0 N1 : ℕ) (hN : 0 < N0) (μ0 μ1 μ : ℝ) :
    (exp (μ0 - max μ0 μ1) * Wr s v 0 N0 μ0 + exp (μ1 - max μ0 μ1) * Wr s v N0 N1 μ1)
      / (exp (μ0 - max μ0 μ1) * Zr s 0 N0 μ0 + exp (μ1 - max μ0 μ1) * Zr s N0 N1 μ1)
    = Wr s v 0 (N0 + N1) μ / Zr s 0 (N0 + N1) μ := by
  rw [Wr_shift, Wr_shift, Zr_shift, Zr_shift]
  have hW : Wr s v 0 N0 (max μ0 μ1) + Wr s v N0 N1 (max μ0 μ1) = Wr s v 0 (N0 + N1) (max μ0 μ1) := by
    rw [Wr_append, zero_add]
  have hZ : Zr s 0 N0 (max μ0 μ1) + Zr s N0 N1 (max μ0 μ1) = Zr s 0 (N0 + N1) (max μ0 μ1) := by
    rw [Zr_append, zero_add]
  rw [hW, hZ, ← Wr_shift s v 0 (N0 + N1) μ (max μ0 μ1), ← Zr_shift s 0 (N0 + N1) μ (max μ0 μ1)]
  exact mul_div_mul_left _ _ (exp_pos _).ne'

end Cert.Pool

end
-- ==== Proof.Softmax.lean ====
/-
  The softmax-pooled feature of the 500000 feature rows as a quotient of two sums over the naturals.

  The scores and the columns of the rows, extended by zero past the last row, turn the pooled feature's sums over the
  row index into sums over an initial segment of the naturals — the form in which blocks of rows are appended and
  reference points are moved (the laws of the streaming softmax).
-/
import proofs.«136195_j85306640433215_2_alg».proof.Proof.Spec
import proofs.«136195_j85306640433215_2_alg».proof.Proof.LibOnlineSoftmax

noncomputable section

open scoped BigOperators
open Finset Real

namespace Cert.Pool

/-! ## The 500000 feature rows -/

variable (f : Fin 500000 → Fin 512 → ℝ) (q : Fin 512 → ℝ)

/-- The score of row `n`, extended by zero past the last row. -/
def scoreN (n : ℕ) : ℝ := if h : n < 500000 then score f q ⟨n, h⟩ else 0

/-- Column `d` of row `n`, extended by zero past the last row. -/
def colN (d : Fin 512) (n : ℕ) : ℝ := if h : n < 500000 then f ⟨n, h⟩ d else 0

theorem scoreN_val (k : Fin 500000) : scoreN f q k.val = score f q k := dif_pos k.isLt
theorem colN_val (d : Fin 512) (k : Fin 500000) : colN f d k.val = f k d := dif_pos k.isLt

theorem norm_eq (μ : ℝ) : norm f q μ = Zr (scoreN f q) 0 500000 μ := by
  unfold norm Zr
  rw [← Fin.sum_univ_eq_sum_range (fun n => exp (scoreN f q (0 + n) - μ)) 500000]
  refine sum_congr rfl fun k _ => ?_
  rw [zero_add, scoreN_val]

/-- The softmax-pooled feature is the quotient of the weighted sum by the normaliser. -/
theorem pool_eq (μ : ℝ) (d : Fin 512) :
    pool f q μ d = Wr (scoreN f q) (colN f d) 0 500000 μ / Zr (scoreN f q) 0 500000 μ := by
  unfold pool
  rw [norm_eq, Wr, sum_div, ← Fin.sum_univ_eq_sum_range (fun n => exp (scoreN f q (0 + n) - μ) * colN f d (0 + n) / Zr (scoreN f q) 0 500000 μ) 500000]
  refine sum_congr rfl fun k _ => ?_
  rw [zero_add, scoreN_val, colN_val, div_mul_eq_mul_div]

end Cert.Pool

end
-- ==== Proof.Carry.lean ====
/-
  The running triple after every grid point, on real numbers.

  With the feature rows and the query real, after point `n` — step `n % 50` of core `n / 50` — the running maximum is
  SOME real `μ`, and relative to that `μ` the running normaliser and the running weighted sum are those of the rows the
  core has streamed so far: the `(n % 50 + 1) · 5000` rows starting at row `(n / 50) · 250000`.  (Which real `μ` is —
  it is the largest score so far — does not matter: the quotient of the two sums does not depend on it.)  By induction
  on the point: a core's first step starts from minus infinity, zero and zero, whose rescaling factor `exp (-∞)` is
  zero; a later step rescales what it finds by `exp (μ - μ')` and adds the block's own sums.
-/
import proofs.«136195_j85306640433215_2_alg».proof.Proof.State
import proofs.«136195_j85306640433215_2_alg».proof.Proof.Blocks
import proofs.«136195_j85306640433215_2_alg».proof.Proof.StepReal
import proofs.«136195_j85306640433215_2_alg».proof.Proof.Softmax
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Carry

open Cert.KernelIdeal Cert.KernelIdeal.Gen

variable {F : FTy → Type} [FloatOps F]

open Idealize.ShloMosaic.ValueIdx Cert.Pool.State Cert.Pool.Step Cert.Pool.StepReal
open scoped BigOperators

variable (f : Fin 500000 → Fin 512 → ℝ) (qr : Fin 512 → ℝ)

/-- The 5000 real rows of the block at point `n`. -/
def rows (n : ℕ) (r : Fin 5000) (d : Fin 512) : ℝ := colN f d (n * 5000 + r.val)

/-- Inside the array, the block's scores are the rows' scores. -/
theorem bscore_rows (n : ℕ) (r : Fin 5000) (h : n * 5000 + r.val < 500000) :
    bscore qr (rows f n) r = scoreN f qr (n * 5000 + r.val) := by
  unfold bscore rows scoreN colN score
  simp only [dif_pos h]

/-- The block's normaliser is that of its 5000 rows. -/
theorem blockZ (n : ℕ) (hn : n < 100) (μ : ℝ) :
    ∑ r : Fin 5000, Real.exp (bscore qr (rows f n) r - μ) = Zr (scoreN f qr) (n * 5000) 5000 μ := by
  unfold Zr
  rw [← Fin.sum_univ_eq_sum_range (fun x => Real.exp (scoreN f qr (n * 5000 + x) - μ)) 5000]
  refine Finset.sum_congr rfl fun r _ => ?_
  rw [bscore_rows f qr n r (by have := r.isLt; omega)]

/-- The block's weighted sum, column `d`, is that of its 5000 rows. -/
theorem blockW (n : ℕ) (hn : n < 100) (μ : ℝ) (d : Fin 512) :
    ∑ r : Fin 5000, Real.exp (bscore qr (rows f n) r - μ) * rows f n r d = Wr (scoreN f qr) (colN f d) (n * 5000) 5000 μ := by
  unfold Wr
  rw [← Fin.sum_univ_eq_sum_range (fun x => Real.exp (scoreN f qr (n * 5000 + x) - μ) * colN f d (n * 5000 + x)) 5000]
  refine Finset.sum_congr rfl fun r _ => ?_
  rw [bscore_rows f qr n r (by have := r.isLt; omega)]
  rfl

variable (m : (ℓ : Loc nD τ sig) → Buf (Elt Ideal) ℓ) (c : Dev nD)

/-- After point `n`: a real maximum, and the sums of the rows streamed so far relative to it. -/
def Inv (n : ℕ) (hn : n < cfg0.N) : Prop :=
  ∃ μ : ℝ, (st m c n hn).1 (ix2 (0 : Fin 1) (0 : Fin 1)) = ((μ : ℝ) : EReal)
    ∧ (st m c n hn).2.1 (ix2 (0 : Fin 1) (0 : Fin 1)) = ((Zr (scoreN f qr) (n / 50 * 250000) ((n % 50 + 1) * 5000) μ : ℝ) : EReal)
    ∧ ∀ d : Fin 512, (st m c n hn).2.2 (ix2 (0 : Fin 1) d)
        = ((Wr (scoreN f qr) (colN f d) (n / 50 * 250000) ((n % 50 + 1) * 5000) μ : ℝ) : EReal)

theorem inv_all
    (hf : ∀ k d, m ((c : Thread nD τ).loc main_arg0) (ix2 k d) = ((f k d : ℝ) : EReal))
    (hq : ∀ d, m ((c : Thread nD τ).loc main_arg1) (ix2 (0 : Fin 1) d) = ((qr d : ℝ) : EReal)) :
    ∀ (n : ℕ) (hn : n < cfg0.N), Inv f qr m c n hn := by
  have hN : cfg0.N = 100 := N_0
  intro n
  induction n with
  | zero =>
    intro hn
    have hq' : ∀ d, (iblk m c 0 ⟨0, hn⟩ : Vec Ideal S1x512 .f32) (ix2 (0 : Fin 1) d) = ((qr d : ℝ) : EReal) :=
      fun d => (Blocks.qblk_apply m c ⟨0, hn⟩ d).trans (hq d)
    have hg' : ∀ r d, (iblk m c 1 ⟨0, hn⟩ : Vec Ideal S5000x512 .f32) (ix2 r d) = ((rows f 0 r d : ℝ) : EReal) := fun r d =>
      (Blocks.fblk_apply m c ⟨0, hn⟩ r d (by have := r.isLt; show 0 * 5000 + r.val < 500000; omega)).trans
        ((hf _ d).trans (congrArg _ (colN_val f d ⟨0 * 5000 + r.val, by have := r.isLt; omega⟩).symm))
    obtain ⟨μ', e1, e2, e3⟩ := first_real (iblk m c 0 ⟨0, hn⟩) (iblk m c 1 ⟨0, hn⟩) qr (rows f 0) hq' hg'
    have hst := st_first m c ⟨0, hn⟩ rfl
    refine ⟨μ', ?_, ?_, ?_⟩
    · exact (congrFun (congrArg (fun p => p.1) hst) _).trans ((congrFun (keep_max _) _).trans e1)
    · refine (congrFun (congrArg (fun p => p.2.1) hst) _).trans (e2.trans ?_)
      rw [blockZ f qr 0 (by omega) μ']
    · intro d
      refine (congrFun (congrArg (fun p => p.2.2) hst) _).trans ((e3 d).trans ?_)
      rw [blockW f qr 0 (by omega) μ' d]
  | succ n ih =>
    intro hn
    have hn' : n < cfg0.N := Nat.lt_of_succ_lt hn
    have hlt : n + 1 < 100 := hN ▸ hn
    have hq' : ∀ d, (iblk m c 0 ⟨n + 1, hn⟩ : Vec Ideal S1x512 .f32) (ix2 (0 : Fin 1) d) = ((qr d : ℝ) : EReal) :=
      fun d => (Blocks.qblk_apply m c ⟨n + 1, hn⟩ d).trans (hq d)
    have hg' : ∀ r d, (iblk m c 1 ⟨n + 1, hn⟩ : Vec Ideal S5000x512 .f32) (ix2 r d) = ((rows f (n + 1) r d : ℝ) : EReal) := fun r d =>
      (Blocks.fblk_apply m c ⟨n + 1, hn⟩ r d (by have := r.isLt; show (n + 1) * 5000 + r.val < 500000; omega)).trans
        ((hf _ d).trans (congrArg _ (colN_val f d ⟨(n + 1) * 5000 + r.val, by have := r.isLt; omega⟩).symm))
    by_cases h0 : (n + 1) % 50 = 0
    · -- a core's first step
      obtain ⟨μ', e1, e2, e3⟩ := first_real (iblk m c 0 ⟨n + 1, hn⟩) (iblk m c 1 ⟨n + 1, hn⟩) qr (rows f (n + 1)) hq' hg'
      have hst := st_first m c ⟨n + 1, hn⟩ h0
      have ha : (n + 1) / 50 * 250000 = (n + 1) * 5000 := by omega
      have hc : ((n + 1) % 50 + 1) * 5000 = 5000 := by omega
      refine ⟨μ', ?_, ?_, ?_⟩
      · exact (congrFun (congrArg (fun p => p.1) hst) _).trans ((congrFun (keep_max _) _).trans e1)
      · refine (congrFun (congrArg (fun p => p.2.1) hst) _).trans (e2.trans ?_)
        rw [blockZ f qr (n + 1) hlt μ', ha, hc]
      · intro d
        refine (congrFun (congrArg (fun p => p.2.2) hst) _).trans ((e3 d).trans ?_)
        rw [blockW f qr (n + 1) hlt μ' d, ha, hc]
    · -- a later step
      obtain ⟨μ, i1, i2, i3⟩ := ih hn'
      obtain ⟨μ', e1, e2, e3⟩ := later_real (iblk m c 0 ⟨n + 1, hn⟩) (iblk m c 1 ⟨n + 1, hn⟩)
        (st m c n hn').1 (st m c n hn').2.1 (st m c n hn').2.2 qr (rows f (n + 1)) hq' hg' μ
        (Zr (scoreN f qr) (n / 50 * 250000) ((n % 50 + 1) * 5000) μ)
        (fun d => Wr (scoreN f qr) (colN f d) (n / 50 * 250000) ((n % 50 + 1) * 5000) μ) i1 i2 i3
      have hst := st_later m c ⟨n + 1, hn⟩ h0
      have ha : (n + 1) / 50 * 250000 = n / 50 * 250000 := by omega
      have hc : ((n + 1) % 50 + 1) * 5000 = (n % 50 + 1) * 5000 + 5000 := by omega
      have hb : (n + 1) * 5000 = n / 50 * 250000 + (n % 50 + 1) * 5000 := by omega
      refine ⟨μ', ?_, ?_, ?_⟩
      · exact (congrFun (congrArg (fun p => p.1) hst) _).trans ((congrFun (keep_max _) _).trans e1)
      · refine (congrFun (congrArg (fun p => p.2.1) hst) _).trans (e2.trans ?_)
        rw [blockZ f qr (n + 1) hlt μ', ha, hc, hb, Zr_step]
      · intro d
        refine (congrFun (congrArg (fun p => p.2.2) hst) _).trans ((e3 d).trans ?_)
        rw [blockW f qr (n + 1) hlt μ' d, ha, hc, hb, Wr_step]

end Cert.Pool.Carry

end
-- ==== Proof.Value.lean ====
/-
  The kernel's result is the softmax-pooled feature.

  With the inputs real, core 0's last point (point 49) leaves a real maximum `μ0` and the sums of rows 0 … 249999
  relative to it, core 1's last point (point 99) a real maximum `μ1` and the sums of rows 250000 … 499999 relative to
  it.  The merge rescales both pairs to `max μ0 μ1`, adds them and divides: the quotient of the weighted sum of all
  500000 rows by their normaliser, which is the pooled feature relative to any reference point.
-/
import proofs.«136195_j85306640433215_2_alg».proof.Proof.Carry
import proofs.«136195_j85306640433215_2_alg».proof.Proof.Arrays
import proofs.«136195_j85306640433215_2_alg».proof.Proof.Tail
import proofs.«136195_j85306640433215_2_alg».proof.Proof.Softmax
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Value

open Cert.KernelIdeal Cert.KernelIdeal.Gen

variable {F : FTy → Type} [FloatOps F]

open Idealize.ShloMosaic.ValueIdx Cert.Pool.State Cert.Pool.Carry Cert.Pool.Arrays Cert.Pool.Tail

variable (f : Fin 500000 → Fin 512 → ℝ) (qr : Fin 512 → ℝ)
variable (m : (ℓ : Loc nD τ sig) → Buf (Elt Ideal) ℓ) (c : Dev nD)

theorem kernel_value
    (hf : ∀ k d, m ((c : Thread nD τ).loc main_arg0) (ix2 k d) = ((f k d : ℝ) : EReal))
    (hq : ∀ d, m ((c : Thread nD τ).loc main_arg1) (ix2 (0 : Fin 1) d) = ((qr d : ℝ) : EReal))
    (μ : ℝ) (d : Fin 512) :
    merge (F := Ideal) (G2 m c) (G3 m c) (G4 m c) (ix2 (0 : Fin 1) d) = ((pool f qr μ d : ℝ) : EReal) := by
  have hN : cfg0.N = 100 := N_0
  have h49 : 49 < cfg0.N := by rw [hN]; omega
  have h99 : 99 < cfg0.N := by rw [hN]; omega
  obtain ⟨μ0, a1, a2, a3⟩ := inv_all f qr m c hf hq 49 h49
  obtain ⟨μ1, b1, b2, b3⟩ := inv_all f qr m c hf hq 99 h99
  have h10 : G3 m c (ix3 (0 : Fin 2) (0 : Fin 1) (0 : Fin 128)) = ((μ0 : ℝ) : EReal) := (G3_at m c _ 49 h49 rfl).trans a1
  have h11 : G3 m c (ix3 (1 : Fin 2) (0 : Fin 1) (0 : Fin 128)) = ((μ1 : ℝ) : EReal) := (G3_at m c _ 99 h99 rfl).trans b1
  have h20 : G4 m c (ix3 (0 : Fin 2) (0 : Fin 1) (0 : Fin 128)) = ((Zr (scoreN f qr) 0 250000 μ0 : ℝ) : EReal) :=
    (G4_at m c _ 49 h49 rfl).trans a2
  have h21 : G4 m c (ix3 (1 : Fin 2) (0 : Fin 1) (0 : Fin 128)) = ((Zr (scoreN f qr) 250000 250000 μ1 : ℝ) : EReal) :=
    (G4_at m c _ 99 h99 rfl).trans b2
  have h00 : ∀ d : Fin 512, G2 m c (ix3 (0 : Fin 2) (0 : Fin 1) d) = ((Wr (scoreN f qr) (colN f d) 0 250000 μ0 : ℝ) : EReal) :=
    fun d => (G2_at m c _ 49 h49 d rfl rfl).trans (a3 d)
  have h01 : ∀ d : Fin 512, G2 m c (ix3 (1 : Fin 2) (0 : Fin 1) d) = ((Wr (scoreN f qr) (colN f d) 250000 250000 μ1 : ℝ) : EReal) :=
    fun d => (G2_at m c _ 99 h99 d rfl rfl).trans (b3 d)
  have hne : Real.exp (μ0 - max μ0 μ1) * Zr (scoreN f qr) 0 250000 μ0
      + Real.exp (μ1 - max μ0 μ1) * Zr (scoreN f qr) 250000 250000 μ1 ≠ 0 :=
    (add_pos (mul_pos (Real.exp_pos _) (Zr_pos _ _ _ (by norm_num) _))
      (mul_pos (Real.exp_pos _) (Zr_pos _ _ _ (by norm_num) _))).ne'
  refine (merge_real (G2 m c) (G3 m c) (G4 m c) μ0 μ1 _ _ (fun d => Wr (scoreN f qr) (colN f d) 0 250000 μ0)
    (fun d => Wr (scoreN f qr) (colN f d) 250000 250000 μ1) h10 h11 h20 h21 h00 h01 hne d).trans ?_
  exact congrArg (fun x : ℝ => (x : EReal))
    ((pooled_eq (scoreN f qr) (colN f d) 250000 250000 (by norm_num) μ0 μ1 μ).trans (pool_eq f qr μ d).symm)

end Cert.Pool.Value

end
-- ==== Proof.RefValue.lean ====
/-
  The reference program computes the softmax-pooled feature.

  The program transposes the feature matrix, forms the scores s k = Σ j, q j · f k j, takes their maximum M from −∞
  (and once more against −∞), exponentiates s k − M, sums the exponentials from 0 into L, divides each exponential
  by L and multiplies the resulting weight row into the feature matrix. With every input a real number every score is
  real; the maximum of the 500000 real scores, folded from −∞, is below +∞ (each score is) and at least the score of
  row 0, so it is a real number μ. Then the exponentials are the real exp (s k − μ), their sum is the real normaliser
  at μ, which is positive, the quotients are real, and the last product's column d is the pooled feature at μ.
-/
import proofs.«136195_j85306640433215_2_alg».proof.Proof.Gen.ReferenceIdeal.Read
import proofs.«136195_j85306640433215_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Pool.RefValue

open Cert.ReferenceIdeal Cert.ReferenceIdeal.Gen Cert.ReferenceIdeal.Read Idealize.ShloMosaic Idealize.ShloMosaic.TcCoe
  Idealize.SL.Sem Idealize.ShloMosaic.StableHlo
open Idealize.ShloMosaic.ValueIdx (ix1 ix2)

/-! ## Two general facts -/

/-- The coercion of the reals into the extended reals commutes with finite sums. -/
theorem coe_finset_sum {ι : Type} (s : Finset ι) (g : ι → ℝ) :
    ((∑ i ∈ s, g i : ℝ) : EReal) = ∑ i ∈ s, ((g i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The maximum of 500000 real numbers, folded from −∞, is a real number: it is below +∞ because every operand is,
    and it is at least the first of them, which is above −∞. -/
theorem exists_real_max (g : Fin 500000 → ℝ) :
    ∃ μ : ℝ, (Finset.univ : Finset (Fin 500000)).fold max (⊥ : EReal) (fun k => ((g k : ℝ) : EReal)) = (μ : EReal) := by
  obtain ⟨M, hM⟩ : ∃ M : EReal, M = (Finset.univ : Finset (Fin 500000)).fold max (⊥ : EReal) (fun k => ((g k : ℝ) : EReal)) :=
    ⟨_, rfl⟩
  rw [← hM]
  have h1 : M < ⊤ := by
    rw [hM, Finset.fold_max_lt]
    exact ⟨bot_lt_top, fun x _ => EReal.coe_lt_top _⟩
  have h2 : ((g ⟨0, by decide⟩ : ℝ) : EReal) ≤ M := by
    rw [hM, Finset.le_fold_max]
    exact Or.inr ⟨⟨0, by decide⟩, Finset.mem_univ _, le_rfl⟩
  have h3 : ⊥ < M := lt_of_lt_of_le (EReal.bot_lt_coe _) h2
  exact ⟨M.toReal, (EReal.coe_toReal (ne_of_lt h1) (ne_of_gt h3)).symm⟩

/-! ## The stages of the program, read at an index -/

section Stages

variable (x0 : (⟨S500000x512, .f32⟩ : BufTy).Contents (Elt Ideal)) (x1 : (⟨S1x512, .f32⟩ : BufTy).Contents (Elt Ideal))
  (f : Fin 500000 → Fin 512 → ℝ) (q : Fin 512 → ℝ)

/-- The first product's entry k is the score of row k. -/
theorem score_apply (hf : ∀ k d, x0 (ix2 k d) = ((f k d : ℝ) : EReal))
    (hq : ∀ d, x1 (ix2 (0 : Fin 1) d) = ((q d : ℝ) : EReal)) (k : Fin 500000) :
    val_main_v1 (F := Ideal) x0 x1 (ix2 (0 : Fin 1) k) = ((score f q k : ℝ) : EReal) := by
  rw [val_main_v1_apply]
  unfold score
  rw [coe_finset_sum]
  refine Finset.sum_congr rfl fun j _ => ?_
  rw [val_main_v0_apply]
  have e1 : lidx_main_v1 (ix2 (0 : Fin 1) k) j = ix2 (0 : Fin 1) j :=
    funext fun a => Fin.ext (by match a with | ⟨0, _⟩ => rfl | ⟨1, _⟩ => rfl)
  have e2 : idx_main_v0 (ridx_main_v1 (ix2 (0 : Fin 1) k) j) = ix2 k j :=
    funext fun a => Fin.ext (by match a with | ⟨0, _⟩ => rfl | ⟨1, _⟩ => rfl)
  rw [e1, e2, hq, hf, EReal.coe_mul]

/-- The row index 0 of the one-row result with column k inserted is (0, k). -/
theorem lift_eq (h : S1x500000.Reduces [1] S1) (k : Fin 500000) : h.lift (ix1 (0 : Fin 1)) k = ix2 (0 : Fin 1) k :=
  funext fun c => Fin.ext (by match c with | ⟨0, _⟩ => rfl | ⟨1, _⟩ => rfl)

/-- The maximum stage is the fold of max from −∞ over the scores. -/
theorem max_apply (hf : ∀ k d, x0 (ix2 k d) = ((f k d : ℝ) : EReal))
    (hq : ∀ d, x1 (ix2 (0 : Fin 1) d) = ((q d : ℝ) : EReal)) :
    val_main_v2 (F := Ideal) x0 x1 (ix1 (0 : Fin 1))
      = (Finset.univ : Finset (Fin 500000)).fold max (⊥ : EReal) (fun k => ((score f q k : ℝ) : EReal)) := by
  have h : S1x500000.Reduces [1] S1 := by decide
  unfold val_main_v2
  refine (Host.reduce_eq_fold_single (FloatOps.maximumf (F := Ideal) (φ := .f32)) (val_main_v1 (F := Ideal) x0 x1)
    (val_main_cst (F := Ideal)) reducesTo_S1x500000_S1_d1 h h_S_ (ix1 (0 : Fin 1))).trans ?_
  have hb : (val_main_cst (F := Ideal)) (Shape.Idx.first h_S_) = (⊥ : EReal) := by
    rw [val_main_cst_apply]; simp [Ideal.ofBits, Ideal.ieee]
  have hfun : (val_main_v1 (F := Ideal) x0 x1 ∘ h.lift (ix1 (0 : Fin 1)))
      = fun k : Fin 500000 => ((score f q k : ℝ) : EReal) := funext fun k => by
    show val_main_v1 (F := Ideal) x0 x1 (h.lift (ix1 (0 : Fin 1)) k) = _
    rw [lift_eq h k, score_apply x0 x1 f q hf hq k]
  rw [hb, hfun]
  rfl

/-- Every entry of the broadcast maximum is the maximum stage's one entry, compared once more with −∞. -/
theorem bmax_apply (k : Fin 500000) :
    val_main_v6 (F := Ideal) x0 x1 (ix2 (0 : Fin 1) k) = val_main_v2 (F := Ideal) x0 x1 (ix1 (0 : Fin 1)) := by
  rw [val_main_v6_apply, val_main_v5_apply, val_main_v4_apply, val_main_v3_apply, val_main_cst_0_apply]
  have e : idx_main_v5 (idx_main_v6 (ix2 (0 : Fin 1) k)) = ix1 (0 : Fin 1) :=
    funext fun a => Fin.ext (by match a with | ⟨0, _⟩ => rfl)
  rw [e]
  have hb : Ideal.ofBits .f32 0xFF800000#32 = (⊥ : EReal) := by simp [Ideal.ofBits, Ideal.ieee]
  show max (Ideal.ofBits .f32 0xFF800000#32) _ = _
  rw [hb]
  exact max_bot_left _

/-- With the maximum the real number μ, the exponential stage's entry k is exp (s k − μ). -/
theorem exp_apply (hf : ∀ k d, x0 (ix2 k d) = ((f k d : ℝ) : EReal))
    (hq : ∀ d, x1 (ix2 (0 : Fin 1) d) = ((q d : ℝ) : EReal)) (μ : ℝ)
    (hμ : val_main_v2 (F := Ideal) x0 x1 (ix1 (0 : Fin 1)) = (μ : EReal)) (k : Fin 500000) :
    val_main_v8 (F := Ideal) x0 x1 (ix2 (0 : Fin 1) k) = ((Real.exp (score f q k - μ) : ℝ) : EReal) := by
  rw [val_main_v8_apply, val_main_v7_apply, Ideal.hostUnary_exp_def, Ideal.subf_def, score_apply x0 x1 f q hf hq k,
    bmax_apply x0 x1 k, hμ, ← EReal.coe_sub, Ideal.exp_coe]

/-- The normaliser is positive: a sum of exponentials over a nonempty index set. -/
theorem norm_pos (μ : ℝ) : 0 < norm f q μ :=
  Finset.sum_pos (fun k _ => Real.exp_pos _) ⟨⟨0, by decide⟩, Finset.mem_univ _⟩

/-- The sum stage, from 0, is the normaliser at μ. -/
theorem sum_apply (hf : ∀ k d, x0 (ix2 k d) = ((f k d : ℝ) : EReal))
    (hq : ∀ d, x1 (ix2 (0 : Fin 1) d) = ((q d : ℝ) : EReal)) (μ : ℝ)
    (hμ : val_main_v2 (F := Ideal) x0 x1 (ix1 (0 : Fin 1)) = (μ : EReal)) :
    val_main_v9 (F := Ideal) x0 x1 (ix1 (0 : Fin 1)) = ((norm f q μ : ℝ) : EReal) := by
  rw [val_main_v9_apply, val_main_cst_1_apply, Ideal.ofBits_def, Ideal.ofBits_zero_f32, zero_add]
  unfold norm
  rw [coe_finset_sum]
  refine Finset.sum_congr rfl fun k _ => ?_
  have e : idx_main_v9 (ix1 (0 : Fin 1)) k = ix2 (0 : Fin 1) k :=
    funext fun a => Fin.ext (by match a with | ⟨0, _⟩ => rfl | ⟨1, _⟩ => rfl)
  rw [e, exp_apply x0 x1 f q hf hq μ hμ k]

/-- Every entry of the broadcast sum is the sum stage's one entry. -/
theorem bsum_apply (k : Fin 500000) :
    val_main_v11 (F := Ideal) x0 x1 (ix2 (0 : Fin 1) k) = val_main_v9 (F := Ideal) x0 x1 (ix1 (0 : Fin 1)) := by
  rw [val_main_v11_apply, val_main_v10_apply]
  exact congrArg (val_main_v9 (F := Ideal) x0 x1) (funext fun a => Fin.ext (by match a with | ⟨0, _⟩ => rfl))

/-- The quotient stage's entry k is the softmax weight of row k at μ: a quotient of reals by a nonzero real. -/
theorem weight_apply (hf : ∀ k d, x0 (ix2 k d) = ((f k d : ℝ) : EReal))
    (hq : ∀ d, x1 (ix2 (0 : Fin 1) d) = ((q d : ℝ) : EReal)) (μ : ℝ)
    (hμ : val_main_v2 (F := Ideal) x0 x1 (ix1 (0 : Fin 1)) = (μ : EReal)) (k : Fin 500000) :
    val_main_v12 (F := Ideal) x0 x1 (ix2 (0 : Fin 1) k)
      = ((Real.exp (score f q k - μ) / norm f q μ : ℝ) : EReal) := by
  rw [val_main_v12_apply, Ideal.hostDivf_def, exp_apply x0 x1 f q hf hq μ hμ k, bsum_apply x0 x1 k,
    sum_apply x0 x1 f q hf hq μ hμ, Ideal.div_coe (ne_of_gt (norm_pos f q μ)), ← EReal.coe_mul, mul_one_div]

/-- The reference program's result, read at column d, is the pooled feature's column d at some real reference point. -/
theorem ref_value (hf : ∀ k d, x0 (ix2 k d) = ((f k d : ℝ) : EReal))
    (hq : ∀ d, x1 (ix2 (0 : Fin 1) d) = ((q d : ℝ) : EReal)) :
    ∃ μ : ℝ, ∀ d : Fin 512,
      val_main_v13 (F := Ideal) x0 x1 (ix2 (0 : Fin 1) d) = ((pool f q μ d : ℝ) : EReal) := by
  obtain ⟨μ, hμ'⟩ := exists_real_max (score f q)
  have hμ : val_main_v2 (F := Ideal) x0 x1 (ix1 (0 : Fin 1)) = (μ : EReal) := (max_apply x0 x1 f q hf hq).trans hμ'
  refine ⟨μ, fun d => ?_⟩
  rw [val_main_v13_apply]
  unfold pool
  rw [coe_finset_sum]
  refine Finset.sum_congr rfl fun k _ => ?_
  have e1 : lidx_main_v13 (ix2 (0 : Fin 1) d) k = ix2 (0 : Fin 1) k :=
    funext fun a => Fin.ext (by match a with | ⟨0, _⟩ => rfl | ⟨1, _⟩ => rfl)
  have e2 : ridx_main_v13 (ix2 (0 : Fin 1) d) k = ix2 k d :=
    funext fun a => Fin.ext (by match a with | ⟨0, _⟩ => rfl | ⟨1, _⟩ => rfl)
  rw [e1, e2, weight_apply x0 x1 f q hf hq μ hμ k, hf, EReal.coe_mul]

end Stages

end Cert.Pool.RefValue

end
-- ==== Proof.Finite.lean ====
/-
  Finite inputs are real numbers.

  The precondition is a printed predicate: for each of the two argument arrays it takes the absolute value of every
  element, compares it (strictly below) with the word 0x7F800000, which denotes +∞, folds the comparisons with "and"
  starting from true, and conjoins the two folds. Read at the ideal instance, where a float is an extended real, the
  predicate being true says |x| < ⊤ for every element x of both arrays; an extended real whose absolute value
  max x (-x) lies strictly below ⊤ is neither ⊤ nor ⊥, hence the image of a real number.
-/
import proofs.«136195_j85306640433215_2_alg».proof.Pre_finite_inputs
import proofs.«136195_j85306640433215_2_alg».proof.Proof.Gen.Pre_finite_inputs
import Idealize.ShloMosaic.PureOps.Ideal
import Idealize.ShloMosaic.Lib.ReduceAll
import Idealize.ShloMosaic.Lib.ValueIdx

noncomputable section

namespace Cert.Pool.Finite

open Idealize.ShloMosaic

/-- The rank-0 shape has one index. -/
instance : Subsingleton Cert.Pre_finite_inputs.S_.Idx := ⟨fun a b => funext fun d => d.elim0⟩

/-- The binary32 word with exponent field all ones and fraction zero, sign clear, denotes +∞. -/
theorem ofBits_inf : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A boolean whose one-bit word is 1 is true. -/
theorem ofBool_eq_one {b : Bool} (h : BitVec.ofBool b = 1#1) : b = true := by
  cases b
  · exact absurd h (by decide)
  · rfl

/-- The element fact the predicate compares: the ordered "less than" of |x| against the word of +∞ being true
    says x is real. -/
theorem real_of_cmp (x : EReal)
    (h : Ideal.cmp .olt (max x (-x)) (Ideal.ofBits .f32 0x7F800000#32) = 1#1) : ∃ r : ℝ, x = (r : EReal) := by
  rw [ofBits_inf] at h
  have h' : BitVec.ofBool (decide (max x (-x) < ⊤)) = 1#1 := h
  exact real_of_abs_lt_top x (of_decide_eq_true (ofBool_eq_one h'))

theorem real_of_pre [Cert.Pre_finite_inputs.Facts]
    (x0 : (⟨Cert.Pre_finite_inputs.S500000x512, .f32⟩ : BufTy).Contents (Elt Ideal))
    (x1 : (⟨Cert.Pre_finite_inputs.S1x512, .f32⟩ : BufTy).Contents (Elt Ideal))
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.Pool.Finite

end
-- ==== Proof.Bridge.lean ====
/-
  The two results are one array.

  Under the precondition every entry of both inputs is a real number.  Then the reference's result at column `d` is the
  softmax-pooled feature relative to some reference point `μ` (its own maximal score), and the kernel's merged result
  at column `d` is the pooled feature relative to every reference point, in particular that one.
-/
import proofs.«136195_j85306640433215_2_alg».proof.Proof.Value
import proofs.«136195_j85306640433215_2_alg».proof.Proof.RefValue
import proofs.«136195_j85306640433215_2_alg».proof.Proof.Finite
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pool.Bridge

open Cert.KernelIdeal Cert.KernelIdeal.Gen

variable {F : FTy → Type} [FloatOps F]

open Idealize.ShloMosaic.ValueIdx Cert.Pool.Arrays Cert.Pool.Tail

variable (m : (ℓ : Loc nD τ sig) → Buf (Elt Ideal) ℓ) (c : Dev nD)

theorem result_eq
    (hp : Cert.Pre_finite_inputs.fn (F := Ideal) (m ((c : Thread nD τ).loc main_arg0)) (m ((c : Thread nD τ).loc main_arg1)) = (fun _ => 1#1)) :
    merge (F := Ideal) (G2 m c) (G3 m c) (G4 m c)
      = Cert.ReferenceIdeal.Read.val_main_v13 (F := Ideal) (m ((c : Thread nD τ).loc main_arg0)) (m ((c : Thread nD τ).loc main_arg1)) := by
  obtain ⟨h0, h1⟩ := Cert.Pool.Finite.real_of_pre _ _ hp
  choose f0 hf0 using h0
  choose q0 hq0 using h1
  have hf : ∀ (k : Fin 500000) (d : Fin 512), m ((c : Thread nD τ).loc main_arg0) (ix2 k d) = ((f0 (ix2 k d) : ℝ) : EReal) := fun k d => hf0 _
  have hq : ∀ d : Fin 512, m ((c : Thread nD τ).loc main_arg1) (ix2 (0 : Fin 1) d) = ((q0 (ix2 (0 : Fin 1) d) : ℝ) : EReal) := fun d => hq0 _
  obtain ⟨μ, hμ⟩ := Cert.Pool.RefValue.ref_value (m ((c : Thread nD τ).loc main_arg0)) (m ((c : Thread nD τ).loc main_arg1))
    (fun k d => f0 (ix2 k d)) (fun d => q0 (ix2 (0 : Fin 1) d)) hf hq
  funext i
  obtain ⟨p, d, rfl⟩ : ∃ (p : Fin 1) (d : Fin 512), i = ix2 p d := ⟨i 0, i 1, eq_ix2 i⟩
  obtain rfl : p = 0 := Subsingleton.elim _ _
  exact (Cert.Pool.Value.kernel_value (fun k d => f0 (ix2 k d)) (fun d => q0 (ix2 (0 : Fin 1) d)) m c hf hq μ d).trans (hμ d).symm

end Cert.Pool.Bridge

end
-- ==== Proof.lean ====
/-
  Single-query attention pooling: a streaming softmax over two cores against the plain softmax.

  The reference computes, for a query `q` and 500000 feature rows `f k`, the scores `s k = q · f k`, their softmax
  `a k = exp (s k - M) / Σ k', exp (s k' - M)` at `M = max s`, and the pooled row `Σ k, a k · f k`.

  The kernel never holds all the scores.  Each of two cores streams 50 blocks of 5000 rows and carries a running
  maximum `m`, a running normaliser `l` and a running weighted sum `acc`: a step computes the block's scores, moves
  the maximum to `m' = max m (max of the block)`, rescales what it carries by `exp (m - m')` and adds the block's
  `Σ exp (s k - m')` and `Σ exp (s k - m') · f k`.  After its last block a core writes its triple out, and the host
  merges the two triples the same way: rescale both to `max m0 m1`, add, divide.

  On the extended reals the two agree because, with every input finite, every quantity is a real number and
      exp (μ - μ') · Σ exp (s k - μ) · v k = Σ exp (s k - μ') · v k :
  the carried pair is always the pair of sums over the rows seen so far relative to the carried maximum, whatever that
  maximum is, and the final quotient (weighted sum) / (normaliser) does not depend on the reference point at all.  The
  first step of a core starts from `m = -∞`, where the rescaling factor `exp (-∞) = 0` meets zero sums.  Finiteness of
  the inputs is what lets the factor move across the sums; the precondition supplies it.

  The modules: Spec (the pooled feature on the reals), Softmax (the rescaling and merging laws), Step and StepReal (one
  grid step, entry by entry, then on reals), Pieces and State (what each grid point leaves in the running triple),
  Blocks (which rows a point sees), Carry (the induction over the grid), Arrays (the three result arrays), Tail (the
  host merge), KRun (the kernel's run with its result named), Value and Bridge (the two results are one array),
  RefValue (the reference's result on reals), Finite (real witnesses from the precondition).
-/
import proofs.«136195_j85306640433215_2_alg».proof.Defs
import proofs.«136195_j85306640433215_2_alg».proof.Proof.Gen.Kernel
import proofs.«136195_j85306640433215_2_alg».proof.Proof.Gen.Kernel.Skeleton
import proofs.«136195_j85306640433215_2_alg».proof.Proof.Gen.Kernel.Launch
import proofs.«136195_j85306640433215_2_alg».proof.Proof.Gen.Kernel.Points
import proofs.«136195_j85306640433215_2_alg».proof.Proof.Gen.Kernel.Frame
import proofs.«136195_j85306640433215_2_alg».proof.Proof.Gen.KernelIdeal
import proofs.«136195_j85306640433215_2_alg».proof.Proof.Gen.KernelIdeal.Skeleton
import proofs.«136195_j85306640433215_2_alg».proof.Proof.Gen.KernelIdeal.Launch
import proofs.«136195_j85306640433215_2_alg».proof.Proof.Gen.KernelIdeal.Points
import proofs.«136195_j85306640433215_2_alg».proof.Proof.Gen.KernelIdeal.Frame
import proofs.«136195_j85306640433215_2_alg».proof.Proof.Gen.ReferenceIdeal
import proofs.«136195_j85306640433215_2_alg».proof.Proof.Gen.Pre_finite_inputs
import proofs.«136195_j85306640433215_2_alg».proof.Proof.Gen.ReferenceIdeal.Run
import proofs.«136195_j85306640433215_2_alg».proof.Proof.Gen.ReferenceIdeal.Read
import proofs.«136195_j85306640433215_2_alg».proof.Proof.KRun
import proofs.«136195_j85306640433215_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs run; the kernel ends at the merge of its two cores' triples,
    the reference at its softmax-weighted sum; under the precondition these are one array. -/
theorem algebraic : Cert.algebraic_KernelIdeal_ReferenceIdeal := by
  intro m ρ m' ρ' hpre hagree
  refine ⟨fun c => Cert.Pool.Tail.merge (F := Ideal) (Cert.Pool.Arrays.G2 m c) (Cert.Pool.Arrays.G3 m c) (Cert.Pool.Arrays.G4 m c),
    Cert.Pool.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans (Cert.Pool.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
